-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x128 : Shape := ⟨2, ![10000, 128]⟩
abbrev S10000x1 : Shape := ⟨2, ![10000, 1]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩
abbrev S64x64 : Shape := ⟨2, ![64, 64]⟩
abbrev S1x1 : Shape := ⟨2, ![1, 1]⟩

abbrev nBuf : Space → Nat
  | .hbm => 97
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .bf16⟩
  | .hbm, ⟨27, _⟩ => ⟨S128x128, .bf16⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .bf16⟩
  | .hbm, ⟨52, _⟩ => ⟨S128x64, .bf16⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S64x64, .f32⟩
  | .hbm, ⟨78, _⟩ => ⟨S100000x1, .i32⟩
  | .hbm, ⟨79, _⟩ => ⟨S64x64, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S64, .f32⟩
  | .hbm, ⟨84, _⟩ => ⟨S100000x1, .i32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1, .f32⟩
  | .hbm, ⟨90, _⟩ => ⟨S64x64, .f32⟩
  | .hbm, ⟨91, _⟩ => ⟨S64x64, .f32⟩
  | .hbm, ⟨92, _⟩ => ⟨S64x1, .f32⟩
  | .hbm, ⟨93, _⟩ => ⟨S1x1, .f32⟩
  | .hbm, ⟨94, _⟩ => ⟨S64x1, .f32⟩
  | .hbm, ⟨95, _⟩ => ⟨S64x1, .f32⟩
  | .hbm, ⟨96, _⟩ => ⟨S64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .bf16⟩
  | .local _ .vmem, ⟨8, _⟩ => ⟨S10000x128, .bf16⟩
  | .local _ .vmem, ⟨9, _⟩ => ⟨S128x64, .bf16⟩
  | .local _ .vmem, ⟨10, _⟩ => ⟨S10000x1, .f32⟩
  | .local _ .vmem, ⟨11, _⟩ => ⟨S10000x1, .f32⟩
  | .local _ .vmem, ⟨12, _⟩ => ⟨S10000x64, .f32⟩
  | .local _ .vmem, ⟨13, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S64x64 : Shape := ⟨2, ![64, 64]⟩
abbrev S100000x1 : Shape := ⟨2, ![100000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S64x64, .f32⟩
  | .hbm, ⟨93, _⟩ => ⟨S100000x1, .i32⟩
  | .hbm, ⟨94, _⟩ => ⟨S64x64, .f32⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S64, .f32⟩
  | .hbm, ⟨99, _⟩ => ⟨S100000x1, .i32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x1, .f32⟩
  | .hbm, ⟨105, _⟩ => ⟨S64x64, .f32⟩
  | .hbm, ⟨106, _⟩ => ⟨S64x64, .f32⟩
  | .hbm, ⟨107, _⟩ => ⟨S64x1, .f32⟩
  | .hbm, ⟨108, _⟩ => ⟨S1x1, .f32⟩
  | .hbm, ⟨109, _⟩ => ⟨S64x1, .f32⟩
  | .hbm, ⟨110, _⟩ => ⟨S64x1, .f32⟩
  | .hbm, ⟨111, _⟩ => ⟨S64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernelRun.lean ====
/-
  The idealized kernel's run with its RESULT named.

  The program is two grid-pipelined matrix products among stretches of host operations. Its run is a fold of buffer
  contents through the nine segments of @main; the last boundary's contents `W9` hold, at the result buffer, what the
  program returns. This module restates the run of the segments with that buffer in the post-condition, beside the
  unchanged arguments: the statement every later module reads the value from.
-/
import proofs.«138132_j76630806496038_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and every argument array as launched. -/
theorem run_value : θ_run defs (onTc (τ := τ) (main (F := F))) ⟨m, fun _ => 0, ρ⟩ (fun r => ∀ c : Dev nD,
      r.2.mem ((c.tc : Thread nD τ).loc main_v70) = W9 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v70 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.KV

end
-- ==== Proof.LibSegmentSum.lean ====
/-
  Row gather and accumulating row scatter along the leading axis, read at an index, and the one algebraic law a
  degree-normalised neighbourhood sum rests on: a nonnegative real factor passes through a finite sum of extended reals.
  Nothing here mentions a particular program; the sizes are parameters.
-/
import Idealize.ShloMosaic.PureOps.Ideal
import Idealize.ShloMosaic.PureOps.Ideal.Laws
import Idealize.ShloMosaic.Lib.ValueIdx

noncomputable section

open scoped BigOperators

namespace Idealize.ShloMosaic.SegmentSum

open Idealize.ShloMosaic
open Idealize.ShloMosaic.ValueIdx

/-! ## A nonnegative real factor and finite sums of extended reals

The extended reals are not a semiring: `(⊤ + ⊥) * c` and `⊤ * c + ⊥ * c` differ in general. A factor that is a
nonnegative REAL is harmless: it sends each infinity to itself or to zero, and both sides agree. -/

/-- Multiplication on the right by a nonnegative real distributes over every finite sum of extended reals. -/
theorem sum_mul_coe_nonneg {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- In a scatter-add into zeros, a factor that equals one nonnegative real `r` on every update landing at `i` can be
    taken out of the sum at `i`: the scattered products at `i` are `r` times the scattered first factors at `i`. -/
theorem hostScatterAdd_zero_mul_fibre {s si su : Shape} (d : ScatterDims s si su) {w : Nat} (idx : IVec si w)
    (U B : su.Idx → EReal) (i : s.Idx) (r : ℝ) (hr : 0 ≤ r)
    (hB : ∀ j, d.resultIdx? j idx = some i → B j = (r : EReal)) :
    Ideal.hostScatterAdd d (fun _ => 0) idx (fun j => U j * B j) i
      = Ideal.hostScatterAdd d (fun _ => 0) idx U i * (r : EReal) := by
  unfold Ideal.hostScatterAdd
  rw [zero_add, zero_add, sum_mul_coe_nonneg _ _ r hr]
  refine Finset.sum_congr rfl fun j hj => ?_
  show U j * B j = U j * (r : EReal)
  rw [hB j (Finset.mem_filter.mp hj).2]

/-! ## The accumulating row scatter along the leading axis

What a segment sum of rows lowers to: update row `e` of an `[E, D]` array is added into operand row `idx[e, 0]` of an
`[N, D]` array, column by column. Axis 0 of the operand is an inserted window axis (the update has no coordinate on
it), axis 1 is the window; the start index is read signed and is not clamped. -/

/-- The dimension numbers of that scatter for an operand `[N, D]`, scatter indices `[E, 1]` and updates `[E, D]`;
    their conditions `wf` are decided on literal sizes. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands at row `n` was addressed to row `n`: if update element `j` lands at operand index `i`, the
    scatter index of `j`'s row, read as a signed integer, is `i`'s row number. (On axis 0 the landing coordinate is
    the start index plus a window coordinate that is zero, the axis being inserted.) -/
theorem rowScatter_lands {N E D w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N E D wf).resultIdx? j idx = some i) :
    (idx (ix2 (j 0) 0)).toInt = ((i 0).val : ℤ) := by
  unfold ScatterDims.resultIdx? at h
  split at h
  · rename_i hin
    have hv : ((rowScatterDims N E D wf).start j idx 0 + (rowScatterDims N E D wf).window j 0).toNat = (i 0).val :=
      congrArg Fin.val (congrFun (Option.some.inj h) 0)
    have hpos := (hin 0).1
    have hwin : (rowScatterDims N E D wf).window j 0 = 0 := by
      unfold ScatterDims.window
      rw [dif_neg (by simp [ScatterDims.sKept, Shape.kept, List.mem_filter, List.mem_finRange])]
    have hstart : (rowScatterDims N E D wf).start j idx 0 = (idx (ix2 (j 0) 0)).toInt := by
      unfold ScatterDims.start
      rw [dif_pos (show (0 : Fin 2) ∈ (rowScatterDims N E D wf).scatterDimsToOperandDims from List.mem_singleton.mpr rfl)]
      have hsi : (rowScatterDims N E D wf).siIdx j ⟨List.idxOf (0 : Fin 2) (rowScatterDims N E D wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hwin, hstart] at hv hpos
    omega
  · cases h

/-! ## The clamped row a gather reads, and the row a landed update was addressed to -/

/-- The operand row a gather along axis 0 reads for start-index row `e`: the index `idx[e, 0]` read as a signed
    integer, a negative one taken to `0`, clamped to the last row `N − 1`. -/
def clampRow (N : Nat) (hN : 0 < N) {E w : Nat} (idx : IVec ⟨2, ![E, 1]⟩ w) (e : Fin E) : Fin N :=
  ⟨min (idx (ix2 e 0)).toInt.toNat (N - 1), by omega⟩

/-- If update element `j` lands at operand index `i` under the indices `idx`, then any index array `idx'` that reads
    the same signed integer at `j`'s row gathers exactly row `i 0` there: the integer is `i`'s row number, nonnegative
    and below `N`, so neither clamp moves it. -/
theorem clampRow_of_lands {N E D w : Nat} (hN : 0 < N)
    (wf : ScatterDims.WF ⟨2, ![N, D]⟩ ⟨2, ![E, 1]⟩ ⟨2, ![E, D]⟩ [1] [0] [0] 1)
    (idx idx' : IVec ⟨2, ![E, 1]⟩ w) (j : (⟨2, ![E, D]⟩ : Shape).Idx) (i : (⟨2, ![N, D]⟩ : Shape).Idx)
    (h : (rowScatterDims N E D wf).resultIdx? j idx = some i)
    (hsame : (idx' (ix2 (j 0) 0)).toInt = (idx (ix2 (j 0) 0)).toInt) :
    clampRow N hN idx' (j 0) = i 0 := by
  have hl := rowScatter_lands wf idx j i h
  have hi : (i 0).val < N := idx2_lt0 i
  refine Fin.ext ?_
  show min (idx' (ix2 (j 0) 0)).toInt.toNat (N - 1) = (i 0).val
  rw [hsame, hl]
  omega

/-! ## The row gather along the leading axis

What `x[idx]` of an `[N, D]` array at an index column `idx : [E, 1]` lowers to: result row `e` is operand row
`idx[e, 0]`, read signed and clamped into `[0, N − 1]`; axis 0 of the operand is collapsed (slice size 1), axis 1 is
the offset axis, taken whole. -/

section Gather
variable {α : Type}

/-- The dimension numbers of that gather for an operand `[N, D]`, start indices `[E, 1]` and result `[E, D]`; their
    conditions `wf` are decided on literal sizes. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, c)`: the operand at the clamped row of `e` and column `c`. (On axis 0 the operand
    coordinate is the clamped start index alone; on axis 1 it is the result's own column, the start being zero there.) -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (y : (⟨2, ![E, D]⟩ : Shape).Idx) :
    Host.gather (rowGatherDims N E D wf) x idx y = x (ix2 (clampRow N hN idx (y 0)) (y 1)) := by
  unfold Host.gather
  congr 1
  funext a
  refine Fin.ext ?_
  match a with
  | ⟨0, _⟩ =>
    show (rowGatherDims N E D wf).start y idx 0 + (rowGatherDims N E D wf).batchCoord y 0
      + (rowGatherDims N E D wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx y ⟨List.idxOf (0 : Fin 2) (rowGatherDims N E D wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N E D wf).start y idx 1 + (rowGatherDims N E D wf).batchCoord y 1
      + (rowGatherDims N E D wf).offCoord y 1 = (y 1).val
    have hst : (rowGatherDims N E D wf).start y idx 1 = 0 := by
      unfold GatherDims.start
      rw [dif_neg (fun h => absurd (List.mem_singleton.mp h) (show ¬ (1 : Fin 2) = 0 by decide))]
    have hoff : (rowGatherDims N E D wf).offCoord y 1 = (y 1).val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hst, GatherDims.batchCoord_eq_zero _ _ _ List.not_mem_nil, hoff]
    omega

/-! ## The gather of a flat array at an index column

What `x[idx]` of an `[N]` array at `idx : [E, 1]` lowers to: result element `e` is `x` at `idx[e, 0]`, read signed and
clamped into `[0, N − 1]`; no offset axis. -/

/-- The dimension numbers of that gather for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the clamped row of `e`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow N hN idx (y 0))) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

end Gather

/-! ## The normalisation coefficient is a nonnegative real

Scattering ones into zeros counts, at each operand element, the updates that land there. The coefficient
`count > 0 ? count^(-1/2) : 0` is therefore a nonnegative real number, never an infinity. -/

/-- A finite sum of ones in the extended reals is the number of its terms. -/
theorem sum_one_eq_card {ι : Type*} (s : Finset ι) : ∑ _j ∈ s, (1 : EReal) = ((s.card : ℝ) : EReal) := by
  classical
  induction s using Finset.induction_on with
  | empty => simp
  | insert a s ha ih =>
    rw [Finset.sum_insert ha, Finset.card_insert_of_notMem ha, ih, Nat.cast_succ, EReal.coe_add, EReal.coe_one,
      add_comm]

/-- For a natural number `n` read as an extended real, `n > 0 ? n^(-1/2) : 0` is a nonnegative real: zero when
    `n = 0`, the inverse of the real square root otherwise. -/
theorem select_rsqrt_natCast_real (n : ℕ) :
    ∃ r : ℝ, 0 ≤ r ∧
      Scalar.select (Ideal.cmp .ogt ((n : ℝ) : EReal) 0) (Ideal.rsqrt ((n : ℝ) : EReal)) (0 : EReal) = (r : EReal) := by
  rcases Nat.eq_zero_or_pos n with rfl | hn
  · refine ⟨0, le_refl _, ?_⟩
    have hc : Ideal.cmp .ogt (((0 : ℕ) : ℝ) : EReal) 0 = 0#1 := by
      show BitVec.ofBool (decide ((0 : EReal) < (((0 : ℕ) : ℝ) : EReal))) = 0#1
      rw [decide_eq_false (by simp)]
      rfl
    rw [hc, select_zero]
    rfl
  · have hpos : (0 : ℝ) < (n : ℝ) := Nat.cast_pos.mpr hn
    refine ⟨(Real.sqrt (n : ℝ))⁻¹, inv_nonneg.mpr (Real.sqrt_nonneg _), ?_⟩
    have hc : Ideal.cmp .ogt ((n : ℝ) : EReal) 0 = 1#1 := by
      show BitVec.ofBool (decide ((0 : EReal) < ((n : ℝ) : EReal))) = 1#1
      rw [decide_eq_true (EReal.coe_pos.mpr hpos)]
      rfl
    rw [hc, select_one, Ideal.rsqrt_coe, if_neg (not_lt.mpr hpos.le), if_neg hpos.ne']

/-- The degree coefficient at operand element `i`: with `g` the scatter-add of ones into zeros at `i` (the number of
    updates landing there), `g > 0 ? g^(-1/2) : 0` is a nonnegative real. -/
theorem degree_coeff_real {s si su : Shape} (d : ScatterDims s si su) {w : Nat} (idx : IVec si w) (i : s.Idx) :
    ∃ r : ℝ, 0 ≤ r ∧
      Scalar.select (Ideal.cmp .ogt (Ideal.hostScatterAdd d (fun _ => (0 : EReal)) idx (fun _ => (1 : EReal)) i) 0)
        (Ideal.rsqrt (Ideal.hostScatterAdd d (fun _ => (0 : EReal)) idx (fun _ => (1 : EReal)) i)) (0 : EReal)
        = (r : EReal) := by
  have hg : ∃ n : ℕ, Ideal.hostScatterAdd d (fun _ => (0 : EReal)) idx (fun _ => (1 : EReal)) i = ((n : ℝ) : EReal) := by
    unfold Ideal.hostScatterAdd
    exact ⟨_, by rw [zero_add, sum_one_eq_card]⟩
  obtain ⟨n, hn⟩ := hg
  rw [hn]
  exact select_rsqrt_natCast_real n

end Idealize.ShloMosaic.SegmentSum

end
-- ==== Proof.LibGcnLayer.lean ====
/-
  The graph-convolution layer as two arrangements of one sum, on the extended reals.

  A layer maps a node feature column p (one column of h·W) to

      out n = Σ_{edges e into n} p(src e) · (dis(src e) · dis n)  +  p n · (dis n · dis n)  + b

  where the last product is the self loop every node carries and dis is the degree coefficient deg^(-1/2). One side
  computes it literally, summing over the edge list with the N self loops appended (E + N updates, each scaled by the
  product of the two coefficients). The other scales each source row by its own coefficient first, sums over the E real
  edges only, adds the node's own scaled row, and multiplies the total by dis n afterwards:

      out n = dis n · ( Σ_{edges e into n} p(src e) · dis(src e)  +  p n · dis n ) + b.

  The two agree because dis n is a nonnegative REAL: such a factor passes through a finite sum of extended reals
  whatever the terms are, so no finiteness of p is needed. The edge data enter through three functions of the raw
  edge-index array: the signed target of an edge, the (wrapped, clamped) source row of an edge, and nothing else.
-/
import proofs.«138132_j76630806496038_2_alg».proof.Proof.LibSegmentSum

noncomputable section

open scoped BigOperators

namespace GcnSpec

open Idealize.ShloMosaic Idealize.ShloMosaic.ValueIdx

/-! ## The edge list read off the raw index array -/

/-- A possibly negative index wrapped once by the number of rows, as `x[i]` treats `i < 0`: the word `i + N` when `i`
    is negative as a signed integer, `i` itself otherwise. -/
def wrapIdx (N : Nat) (v : BitVec 32) : BitVec 32 :=
  Scalar.select (IntOp.cmpi .slt v 0#32) (IntOp.addi v (BitVec.ofNat 32 N)) v

/-- The row a gather reads for the index word `v`: wrapped once, read signed, a negative value taken to 0, clamped
    to the last row. -/
def rowOf (N : Nat) (hN : 0 < N) (v : BitVec 32) : Fin N :=
  ⟨min (wrapIdx N v).toInt.toNat (N - 1), by omega⟩

variable {N E : Nat}

/-- The signed target of edge `e`: row 1 of the edge-index array. -/
def tgt (ei : (⟨2, ![2, E]⟩ : Shape).Idx → BitVec 32) (e : Fin E) : ℤ := (ei (ix2 (1 : Fin 2) e)).toInt

/-- The source row of edge `e`: row 0 of the edge-index array, wrapped and clamped. -/
def src (hN : 0 < N) (ei : (⟨2, ![2, E]⟩ : Shape).Idx → BitVec 32) (e : Fin E) : Fin N :=
  rowOf N hN (ei (ix2 (0 : Fin 2) e))

/-! ## The two arrangements -/

/-- Scale first, sum over the real edges, add the node's own scaled value, scale the total. -/
def convK (t : Fin E → ℤ) (s : Fin E → Fin N) (dis : Fin N → EReal) (p : Fin N → EReal) (b : EReal) (n : Fin N) : EReal :=
  dis n * ((∑ e ∈ Finset.univ.filter (fun e : Fin E => t e = (n.val : ℤ)), p (s e) * dis (s e)) + p n * dis n) + b

/-- Sum over the edges with the self loops appended, each update scaled by both coefficients. -/
def convR (tF : Fin (E + N) → ℤ) (sF dF : Fin (E + N) → Fin N) (dis : Fin N → EReal) (p : Fin N → EReal) (b : EReal)
    (n : Fin N) : EReal :=
  (∑ e ∈ Finset.univ.filter (fun e : Fin (E + N) => tF e = (n.val : ℤ)), p (sF e) * (dis (sF e) * dis (dF e))) + b

/-- A filtered sum over `Fin (E + N)` is the filtered sum over the first `E` positions plus the one over the last `N`. -/
theorem sum_filter_append (q : Fin (E + N) → Prop) [DecidablePred q] (A : Fin (E + N) → EReal) :
    ∑ e ∈ Finset.univ.filter q, A e
      = ∑ e ∈ Finset.univ.filter (fun e : Fin E => q (Fin.castAdd N e)), A (Fin.castAdd N e)
        + ∑ k ∈ Finset.univ.filter (fun k : Fin N => q (Fin.natAdd E k)), A (Fin.natAdd E k) := by
  rw [Finset.sum_filter, Fin.sum_univ_add, Finset.sum_filter, Finset.sum_filter]

/-- Among the self loops exactly one targets node `n`: its own. -/
theorem filter_self (n : Fin N) :
    Finset.univ.filter (fun k : Fin N => ((k.val : ℤ)) = (n.val : ℤ)) = {n} := by
  ext k
  simp only [Finset.mem_filter, Finset.mem_univ, true_and, Finset.mem_singleton, Nat.cast_inj, Fin.val_inj]

/-- The two arrangements agree when the degree coefficients are nonnegative reals: on the first `E` positions the
    appended list is the edge list (same target, same source row, and the destination coefficient read there is the
    target node's whenever the edge lands), on the last `N` it is the self loops. -/
theorem convR_eq_convK (tF : Fin (E + N) → ℤ) (sF dF : Fin (E + N) → Fin N) (t : Fin E → ℤ) (s : Fin E → Fin N)
    (dis : Fin N → EReal) (hdis : ∀ n, ∃ r : ℝ, 0 ≤ r ∧ dis n = (r : EReal)) (p : Fin N → EReal) (b : EReal) (n : Fin N)
    (h1 : ∀ e, tF (Fin.castAdd N e) = t e) (h2 : ∀ e, sF (Fin.castAdd N e) = s e)
    (h3 : ∀ e, t e = (n.val : ℤ) → dF (Fin.castAdd N e) = n)
    (h4 : ∀ k : Fin N, tF (Fin.natAdd E k) = (k.val : ℤ)) (h5 : ∀ k, sF (Fin.natAdd E k) = k)
    (h6 : ∀ k, dF (Fin.natAdd E k) = k) :
    convR tF sF dF dis p b n = convK t s dis p b n := by
  obtain ⟨r, hr, hn⟩ := hdis n
  unfold convR convK
  congr 1
  rw [sum_filter_append]
  simp only [h1, h2, h4, h5, h6]
  rw [filter_self n, Finset.sum_singleton, hn]
  conv_rhs => rw [mul_comm]
  rw [EReal.right_distrib_of_nonneg_of_ne_top (EReal.coe_nonneg.mpr hr) (EReal.coe_ne_top r),
    SegmentSum.sum_mul_coe_nonneg _ _ r hr]
  congr 1
  · refine Finset.sum_congr rfl fun e he => ?_
    rw [h3 e (Finset.mem_filter.mp he).2, hn, mul_assoc]
  · rw [mul_assoc]

end GcnSpec

end
-- ==== Proof.LibRowScatter.lean ====
/-
  The accumulating row scatter along the leading axis read at an index as ONE sum over the update rows, and its
  composition with a row gather scaled row by row: the shape a neighbourhood sum over a graph's edges takes
  (gather the source rows, scale each by the edge's coefficient, add into the target rows). Nothing here mentions a
  particular program; the sizes are parameters. Built on the row scatter and row gather of LibSegmentSum.
-/
import proofs.«138132_j76630806496038_2_alg».proof.Proof.LibSegmentSum

noncomputable section

open scoped BigOperators

namespace Idealize.ShloMosaic.SegmentSum

open Idealize.ShloMosaic
open Idealize.ShloMosaic.ValueIdx

/-! ## Where an update of the row scatter lands

For the row scatter (operand `[N, D]`, indices `[E, 1]`, updates `[E, D]`) the window start on axis 0 is the signed
scatter index of the update's row and the window coordinate there is zero (the axis is inserted); on axis 1 the start
is zero and the window coordinate is the update's own column. -/

section Lands
variable {N E D w : Nat}
  (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

theorem rowScatter_start0 :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j ⟨List.idxOf (0 : Fin 2) (rowScatterDims N E D wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowScatter_window0 : (rowScatterDims N E D wf).window j 0 = 0 := by
  unfold ScatterDims.window
  rw [dif_neg (by simp [ScatterDims.sKept, Shape.kept, List.mem_filter, List.mem_finRange])]

theorem rowScatter_start1 : (rowScatterDims N E D wf).start j idx 1 = 0 := by
  unfold ScatterDims.start
  rw [dif_neg (fun h => absurd (List.mem_singleton.mp h) (show ¬ (1 : Fin 2) = 0 by decide))]

theorem rowScatter_window1 : (rowScatterDims N E D wf).window j 1 = (j 1).val := by
  unfold ScatterDims.window
  rw [dif_pos (show (1 : Fin 2) ∈ (rowScatterDims N E D wf).sKept by
    simp [ScatterDims.sKept, Shape.kept, List.mem_filter, List.mem_finRange])]
  rfl

/-- An update element lands at operand index `i` exactly when its row's scatter index, read signed, is `i`'s row
    number and its column is `i`'s column. -/
theorem rowScatter_resultIdx_iff (i : (⟨2, ![N, D]⟩ : Shape).Idx) :
    (rowScatterDims N E D wf).resultIdx? j idx = some i
      ↔ (idx (ix2 (j 0) 0)).toInt = ((i 0).val : ℤ) ∧ (j 1).val = (i 1).val := by
  have hs0 := rowScatter_start0 wf idx j
  have hw0 := rowScatter_window0 wf j
  have hs1 := rowScatter_start1 wf idx j
  have hw1 := rowScatter_window1 wf j
  have hi0 : (i 0).val < N := idx2_lt0 i
  have hi1 : (i 1).val < D := idx2_lt1 i
  have hj1 : (j 1).val < D := idx2_lt1 j
  constructor
  · intro h
    unfold ScatterDims.resultIdx? at h
    split at h
    · rename_i hin
      have e := Option.some.inj h
      have v0 : ((rowScatterDims N E D wf).start j idx 0 + (rowScatterDims N E D wf).window j 0).toNat = (i 0).val :=
        congrArg Fin.val (congrFun e 0)
      have v1 : ((rowScatterDims N E D wf).start j idx 1 + (rowScatterDims N E D wf).window j 1).toNat = (i 1).val :=
        congrArg Fin.val (congrFun e 1)
      have p0 := (hin 0).1
      rw [hs0, hw0] at v0 p0
      rw [hs1, hw1] at v1
      constructor <;> omega
    · cases h
  · rintro ⟨hr, hc⟩
    have hall : ∀ a, 0 ≤ (rowScatterDims N E D wf).start j idx a + (rowScatterDims N E D wf).window j a
        ∧ (rowScatterDims N E D wf).start j idx a + (rowScatterDims N E D wf).window j a
          < ((⟨2, ![N, D]⟩ : Shape).size a) := by
      intro a
      match a with
      | ⟨0, _⟩ =>
        show 0 ≤ (rowScatterDims N E D wf).start j idx 0 + (rowScatterDims N E D wf).window j 0
          ∧ (rowScatterDims N E D wf).start j idx 0 + (rowScatterDims N E D wf).window j 0 < (N : ℤ)
        rw [hs0, hw0]; omega
      | ⟨1, _⟩ =>
        show 0 ≤ (rowScatterDims N E D wf).start j idx 1 + (rowScatterDims N E D wf).window j 1
          ∧ (rowScatterDims N E D wf).start j idx 1 + (rowScatterDims N E D wf).window j 1 < (D : ℤ)
        rw [hs1, hw1]; omega
    unfold ScatterDims.resultIdx?
    rw [dif_pos hall]
    congr 1
    funext a
    refine Fin.ext ?_
    match a with
    | ⟨0, _⟩ =>
      show ((rowScatterDims N E D wf).start j idx 0 + (rowScatterDims N E D wf).window j 0).toNat = (i 0).val
      rw [hs0, hw0]; omega
    | ⟨1, _⟩ =>
      show ((rowScatterDims N E D wf).start j idx 1 + (rowScatterDims N E D wf).window j 1).toNat = (i 1).val
      rw [hs1, hw1]; omega

end Lands

/-! ## The row scatter read at an index -/

/-- The accumulating row scatter at `(n, c)`: the operand there plus the sum, over the update rows `e` whose scatter
    index is `n`, of the update at `(e, c)` — column by column, whatever the number of columns. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (U : (⟨2, ![E, D]⟩ : Shape).Idx → EReal) (n : Fin N) (c : Fin D) :
    Ideal.hostScatterAdd (rowScatterDims N E D wf) x idx U (ix2 n c)
      = x (ix2 n c)
        + ∑ e ∈ Finset.univ.filter (fun e : Fin E => (idx (ix2 e 0)).toInt = (n.val : ℤ)), U (ix2 e c) := by
  unfold Ideal.hostScatterAdd
  congr 1
  refine Finset.sum_nbij' (fun j => j 0) (fun e => ix2 e c) ?_ ?_ ?_ ?_ ?_
  · intro j hj
    have h := (rowScatter_resultIdx_iff wf idx j (ix2 n c)).mp (Finset.mem_filter.mp hj).2
    exact Finset.mem_filter.mpr ⟨Finset.mem_univ _, h.1⟩
  · intro e he
    exact Finset.mem_filter.mpr ⟨Finset.mem_univ _,
      (rowScatter_resultIdx_iff wf idx (ix2 e c) (ix2 n c)).mpr ⟨(Finset.mem_filter.mp he).2, rfl⟩⟩
  · intro j hj
    have h := (rowScatter_resultIdx_iff wf idx j (ix2 n c)).mp (Finset.mem_filter.mp hj).2
    have hc : j 1 = c := Fin.ext h.2
    rw [← hc]
    exact (eq_ix2 j).symm
  · intro e _
    rfl
  · intro j hj
    have h := (rowScatter_resultIdx_iff wf idx j (ix2 n c)).mp (Finset.mem_filter.mp hj).2
    have hc : j 1 = c := Fin.ext h.2
    rw [← hc]
    exact congrArg U (eq_ix2 j)

/-- The sum a neighbourhood aggregation computes at target row `n` from a column `p` of the source rows: over the
    edges `e` whose target index `col[e]` is `n`, the edge's coefficient times `p` at the edge's (clamped) source row. -/
def edgeSum (N : Nat) (hN : 0 < N) {E w : Nat} (col row : IVec ⟨2, ![E, 1]⟩ w)
    (coef : (⟨2, ![E, 1]⟩ : Shape).Idx → EReal) (p : Fin N → EReal) (n : Fin N) : EReal :=
  ∑ e ∈ Finset.univ.filter (fun e : Fin E => (col (ix2 e 0)).toInt = (n.val : ℤ)),
    coef (ix2 e 0) * p (clampRow N hN row e)

/-- Gather the rows `row` of `P`, scale row `e` by `coef[e]`, add into the rows `col` of zeros: at `(n, c)` this is
    the edge sum of column `c` of `P`. The updates are given as any array `U` that reads `coef[e] · P[row e, c]`. -/
theorem scatter_scaled_gather_apply {N E D w : Nat} (hN : 0 < N)
    (wfs : ScatterDims.WF ⟨2, ![N, D]⟩ ⟨2, ![E, 1]⟩ ⟨2, ![E, D]⟩ [1] [0] [0] 1)
    (col row : IVec ⟨2, ![E, 1]⟩ w) (coef : (⟨2, ![E, 1]⟩ : Shape).Idx → EReal)
    (P : (⟨2, ![N, D]⟩ : Shape).Idx → EReal) (U : (⟨2, ![E, D]⟩ : Shape).Idx → EReal)
    (hU : ∀ (e : Fin E) (c : Fin D), U (ix2 e c) = coef (ix2 e 0) * P (ix2 (clampRow N hN row e) c))
    (n : Fin N) (c : Fin D) :
    Ideal.hostScatterAdd (rowScatterDims N E D wfs) (fun _ => 0) col U (ix2 n c)
      = edgeSum N hN col row coef (fun r => P (ix2 r c)) n := by
  rw [rowScatterAdd_apply, zero_add]
  unfold edgeSum
  exact Finset.sum_congr rfl fun e _ => hU e c

end Idealize.ShloMosaic.SegmentSum

end
-- ==== Proof.LibHostBroadcast.lean ====
/-
  The host's broadcast_in_dim in the few forms a dense layer uses, read at an index.

  A scalar spread over any shape; a length-b vector made a 1 by b row and the row repeated down a rows (a bias); a
  length-a vector made an a by 1 column and the column repeated across b columns (a per-row quantity kept as a column).
-/
import Idealize.ShloMosaic.Lib.Pipeline.Value
import Idealize.ShloMosaic.Lib.ValueIdx

namespace Idealize.ShloMosaic.HostBroadcast

open Idealize.ShloMosaic Idealize.ShloMosaic.ValueIdx Idealize.ShloMosaic.Pipeline

variable {α : Type}

/-- A scalar broadcast to any shape reads the scalar everywhere. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-b vector as a 1 by b row. -/
theorem vec_row_apply {b : ℕ} (h : (⟨1, ![b]⟩ : Shape).BroadcastsInDim ⟨2, ![1, b]⟩ ![1])
    (x : (⟨1, ![b]⟩ : Shape).Idx → α) (j : (⟨2, ![1, b]⟩ : Shape).Idx) :
    broadcastInDim ⟨2, ![1, b]⟩ ![1] h x j = x (ix1 (j 1)) :=
  broadcastInDim_apply _ h x j (ix1 (j 1)) (fun a => match a with
    | ⟨0, _⟩ => by
      show (j 1).val = if b = 1 then 0 else (j 1).val
      split
      · have := (j 1).isLt; simp at this; omega
      · rfl)

/-- A 1 by b row repeated down a rows. -/
theorem row_rows_apply {a b : ℕ} (h : (⟨2, ![1, b]⟩ : Shape).BroadcastsInDim ⟨2, ![a, b]⟩ ![0, 1])
    (x : (⟨2, ![1, b]⟩ : Shape).Idx → α) (j : (⟨2, ![a, b]⟩ : Shape).Idx) :
    broadcastInDim ⟨2, ![a, b]⟩ ![0, 1] h x j = x (ix2 (0 : Fin 1) (j 1)) :=
  broadcastInDim_apply _ h x j (ix2 (0 : Fin 1) (j 1)) (fun ax => match ax with
    | ⟨0, _⟩ => by
      show 0 = if (1 : ℕ) = 1 then 0 else (j 0).val
      rw [if_pos rfl]
    | ⟨1, _⟩ => by
      show (j 1).val = if b = 1 then 0 else (j 1).val
      split
      · have := (j 1).isLt; simp at this; omega
      · rfl)

/-- A bias: the vector at the column, whatever the row. -/
theorem bias_apply {a b : ℕ} (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (j : (⟨2, ![a, b]⟩ : Shape).Idx) :
    broadcastInDim ⟨2, ![a, b]⟩ ![0, 1] h2 (broadcastInDim ⟨2, ![1, b]⟩ ![1] h1 x) j = x (ix1 (j 1)) :=
  (row_rows_apply h2 _ j).trans (vec_row_apply h1 x _)

/-- A length-a vector as an a by 1 column. -/
theorem vec_col_apply {a : ℕ} (h : (⟨1, ![a]⟩ : Shape).BroadcastsInDim ⟨2, ![a, 1]⟩ ![0])
    (x : (⟨1, ![a]⟩ : Shape).Idx → α) (j : (⟨2, ![a, 1]⟩ : Shape).Idx) :
    broadcastInDim ⟨2, ![a, 1]⟩ ![0] h x j = x (ix1 (j 0)) :=
  broadcastInDim_apply _ h x j (ix1 (j 0)) (fun ax => match ax with
    | ⟨0, _⟩ => by
      show (j 0).val = if a = 1 then 0 else (j 0).val
      split
      · have := (j 0).isLt; simp at this; omega
      · rfl)

/-- An a by 1 column repeated across b columns. -/
theorem col_cols_apply {a b : ℕ} (h : (⟨2, ![a, 1]⟩ : Shape).BroadcastsInDim ⟨2, ![a, b]⟩ ![0, 1])
    (x : (⟨2, ![a, 1]⟩ : Shape).Idx → α) (j : (⟨2, ![a, b]⟩ : Shape).Idx) :
    broadcastInDim ⟨2, ![a, b]⟩ ![0, 1] h x j = x (ix2 (j 0) (0 : Fin 1)) :=
  broadcastInDim_apply _ h x j (ix2 (j 0) (0 : Fin 1)) (fun ax => match ax with
    | ⟨0, _⟩ => by
      show (j 0).val = if a = 1 then 0 else (j 0).val
      split
      · have := (j 0).isLt; simp at this; omega
      · rfl
    | ⟨1, _⟩ => by
      show 0 = if (1 : ℕ) = 1 then 0 else (j 1).val
      rw [if_pos rfl])

/-- A per-row quantity kept as a column and spread over the row. -/
theorem column_apply {a b : ℕ} (h1 : (⟨1, ![a]⟩ : Shape).BroadcastsInDim ⟨2, ![a, 1]⟩ ![0])
    (h2 : (⟨2, ![a, 1]⟩ : Shape).BroadcastsInDim ⟨2, ![a, b]⟩ ![0, 1])
    (x : (⟨1, ![a]⟩ : Shape).Idx → α) (j : (⟨2, ![a, b]⟩ : Shape).Idx) :
    broadcastInDim ⟨2, ![a, b]⟩ ![0, 1] h2 (broadcastInDim ⟨2, ![a, 1]⟩ ![0] h1 x) j = x (ix1 (j 0)) :=
  (col_cols_apply h2 _ j).trans (vec_col_apply h1 x _)

end Idealize.ShloMosaic.HostBroadcast
-- ==== Proof.LibGcnRead.lean ====
/-
  One graph-convolution layer of the scale-first arrangement, read at an index.

  The host gathers the rows of an [N, D] array Q at a column of source indices, adds them into the rows named by a
  column of target indices, adds Q itself (the self loop), multiplies every row by its coefficient and adds the bias.
  Read at (n, c) this is: coefficient n times (the sum, over the edges whose target is n, of Q at the edge's clamped
  source row, plus Q at n), plus the bias at c. Nothing here mentions a particular program; the sizes are parameters.
-/
import proofs.«138132_j76630806496038_2_alg».proof.Proof.LibGcnLayer
import proofs.«138132_j76630806496038_2_alg».proof.Proof.LibRowScatter
import proofs.«138132_j76630806496038_2_alg».proof.Proof.LibHostBroadcast

noncomputable section

open scoped BigOperators

namespace GcnSpec

open Idealize.ShloMosaic Idealize.ShloMosaic.ValueIdx Idealize.ShloMosaic.SegmentSum

/-- The three host operations that wrap a negative index (compare with zero, add the extent, select), read at one
    position, are `wrapIdx` of the word there. -/
theorem wrap_apply {s : Shape} (N : Nat) (v zero nn : IVec s 32) (i : s.Idx) (hz : zero i = 0#32)
    (hn : nn i = BitVec.ofNat 32 N) :
    select (cmpi .slt v zero) (addi v nn) v i = wrapIdx N (v i) := by
  show Scalar.select (IntOp.cmpi .slt (v i) (zero i)) (IntOp.addi (v i) (nn i)) (v i) = _
  rw [hz, hn]
  rfl

/-- The clamped row of a source-index column whose entry at `e` is the wrapped word `v`. -/
theorem clampRow_eq_rowOf {N E : Nat} (hN : 0 < N) (sI : IVec ⟨2, ![E, 1]⟩ 32) (e : Fin E) (v : BitVec 32)
    (h : sI (ix2 e (0 : Fin 1)) = wrapIdx N v) : clampRow N hN sI e = rowOf N hN v := by
  unfold clampRow rowOf
  refine Fin.ext ?_
  show min (sI (ix2 e 0)).toInt.toNat (N - 1) = min (wrapIdx N v).toInt.toNat (N - 1)
  rw [h]

/-- The source-index column as the host builds it (the wrapped index vector made a column) has, at edge `e`, the
    clamped row `rowOf` of the vector's word there. -/
theorem src_col_row {N E : Nat} (hN : 0 < N) (h : (⟨1, ![E]⟩ : Shape).BroadcastsInDim ⟨2, ![E, 1]⟩ ![0])
    (sv zero nn : IVec ⟨1, ![E]⟩ 32) (hz : ∀ i, zero i = 0#32) (hn : ∀ i, nn i = BitVec.ofNat 32 N) (e : Fin E) :
    clampRow N hN (broadcastInDim ⟨2, ![E, 1]⟩ ![0] h (select (cmpi .slt sv zero) (addi sv nn) sv)) e
      = rowOf N hN (sv (ix1 e)) :=
  clampRow_eq_rowOf hN _ e (sv (ix1 e))
    ((Idealize.ShloMosaic.HostBroadcast.vec_col_apply h (select (cmpi .slt sv zero) (addi sv nn) sv) (ix2 e (0 : Fin 1))).trans
      (wrap_apply N sv zero nn (ix1 e) (hz _) (hn _)))

/-- The target-index column (the index vector made a column) reads, at edge `e`, the vector's word there. -/
theorem dst_col_int {E : Nat} (h : (⟨1, ![E]⟩ : Shape).BroadcastsInDim ⟨2, ![E, 1]⟩ ![0]) (dv : IVec ⟨1, ![E]⟩ 32) (e : Fin E) :
    (broadcastInDim ⟨2, ![E, 1]⟩ ![0] h dv (ix2 e (0 : Fin 1))).toInt = (dv (ix1 e)).toInt :=
  congrArg BitVec.toInt (Idealize.ShloMosaic.HostBroadcast.vec_col_apply h dv (ix2 e (0 : Fin 1)))

/-- The layer at (n, c). -/
theorem scale_first_read {N E D : Nat} (hN : 0 < N)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatterDims N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGatherDims N E D wfg)
    (Q zero coefB biasB : (⟨2, ![N, D]⟩ : Shape).Idx → EReal) (hzero : ∀ j, zero j = 0)
    (dI sI : IVec ⟨2, ![E, 1]⟩ 32) (n : Fin N) (c : Fin D) :
    coefB (ix2 n c) * (Ideal.hostScatterAdd ds zero dI (Host.gather dg Q sI) (ix2 n c) + Q (ix2 n c)) + biasB (ix2 n c)
      = coefB (ix2 n c)
          * ((∑ e ∈ Finset.univ.filter (fun e : Fin E => (dI (ix2 e (0 : Fin 1))).toInt = (n.val : ℤ)),
                Q (ix2 (clampRow N hN sI e) c)) + Q (ix2 n c))
        + biasB (ix2 n c) := by
  subst hds hdg
  rw [rowScatterAdd_apply, hzero, zero_add]
  refine congrArg (fun z => coefB (ix2 n c) * (z + Q (ix2 n c)) + biasB (ix2 n c)) ?_
  refine Finset.sum_congr rfl fun e _ => ?_
  exact rowGather_apply hN wfg Q sI (ix2 e c)

/-- The same stated on the host operations themselves (a sum, a product and a sum of arrays read at an index). -/
theorem scale_first_read_ops {N E D : Nat} (hN : 0 < N)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatterDims N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGatherDims N E D wfg)
    (Q zero coefB biasB : FVec Ideal ⟨2, ![N, D]⟩ .f32) (hzero : ∀ j, zero j = 0)
    (dI sI : IVec ⟨2, ![E, 1]⟩ 32) (n : Fin N) (c : Fin D) :
    addf (mulf coefB (addf (Host.scatterAdd ds zero dI (Host.gather dg Q sI)) Q)) biasB (ix2 n c)
      = coefB (ix2 n c)
          * ((∑ e ∈ Finset.univ.filter (fun e : Fin E => (dI (ix2 e (0 : Fin 1))).toInt = (n.val : ℤ)),
                Q (ix2 (clampRow N hN sI e) c)) + Q (ix2 n c))
        + biasB (ix2 n c) := by
  rw [addf_apply, mulf_apply, addf_apply]
  simp only [Host.scatterAdd, Ideal.hostScatterAdd_def]
  exact scale_first_read hN ds wfs hds dg wfg hdg Q zero coefB biasB hzero dI sI n c

/-- The layer at (n, c) in terms of the edge list: the coefficient array reads a per-row coefficient, the bias array a
    per-column bias, the target column the edges' signed targets and the source column their clamped source rows. -/
theorem layer_read {N E D : Nat} (hN : 0 < N)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatterDims N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGatherDims N E D wfg)
    (Q zero coefB biasB : FVec Ideal ⟨2, ![N, D]⟩ .f32) (hzero : ∀ j, zero j = 0)
    (dI sI : IVec ⟨2, ![E, 1]⟩ 32)
    (coef : Fin N → EReal) (bias : Fin D → EReal) (t : Fin E → ℤ) (s : Fin E → Fin N)
    (hcoef : ∀ n c, coefB (ix2 n c) = coef n) (hbias : ∀ n c, biasB (ix2 n c) = bias c)
    (ht : ∀ e, (dI (ix2 e (0 : Fin 1))).toInt = t e) (hs : ∀ e, clampRow N hN sI e = s e)
    (n : Fin N) (c : Fin D) :
    addf (mulf coefB (addf (Host.scatterAdd ds zero dI (Host.gather dg Q sI)) Q)) biasB (ix2 n c)
      = coef n * ((∑ e ∈ Finset.univ.filter (fun e : Fin E => t e = (n.val : ℤ)), Q (ix2 (s e) c)) + Q (ix2 n c))
        + bias c := by
  rw [scale_first_read_ops hN ds wfs hds dg wfg hdg Q zero coefB biasB hzero dI sI n c, hcoef, hbias]
  refine congrArg (fun z => coef n * (z + Q (ix2 n c)) + bias c) ?_
  refine Finset.sum_congr (Finset.filter_congr fun e _ => by rw [ht e]) fun e _ => by rw [hs e]

end GcnSpec

end
-- ==== Proof.KernelTerms.lean ====
/-
  The host side of the idealized kernel program, as named terms.

  Around its two matrix-product kernels the program computes, on the host: the source and target index vectors (rows 0
  and 1 of the edge-index array), the degree coefficient deg^(-1/2) (a scatter of ones over the targets with the self
  loops appended, floored at one, inverse square root), per layer the scale-first aggregation of the kernel's output Q —
  coefficient · (Σ over the edges into n of Q at the source row + Q at n) + bias — and its rectification, and last
  the mean pool over the graph ids followed by the linear head. Each is stated here once as a function of the arrays it
  reads, and the aggregation is read at an index.
-/
import proofs.«138132_j76630806496038_2_alg».proof.Proof.Gen.KernelIdeal
import proofs.«138132_j76630806496038_2_alg».proof.Proof.LibGcnRead
import proofs.«138132_j76630806496038_2_alg».proof.Proof.LibHostBroadcast
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.SL.Sem Idealize.ShloMosaic.ValueIdx
open Idealize.ShloMosaic.SegmentSum

/-! ## The index vectors and the degree coefficient -/

/-- Row 0 of the edge-index array: the edges' sources. -/
def srcVec (x1 : (⟨S2x1600000, .i32⟩ : BufTy).Contents (Elt Ideal)) : (⟨S1600000, .i32⟩ : BufTy).Contents (Elt Ideal) :=
  shapeCast S1600000 (extractStridedSlice S1x1600000 ![0, 0] x1 slices_S2x1600000_S1x1600000_0_0) shapeCasts_S1x1600000_S1600000

/-- Row 1 of the edge-index array: the edges' targets. -/
def dstVec (x1 : (⟨S2x1600000, .i32⟩ : BufTy).Contents (Elt Ideal)) : (⟨S1600000, .i32⟩ : BufTy).Contents (Elt Ideal) :=
  shapeCast S1600000 (extractStridedSlice S1x1600000 ![1, 0] x1 slices_S2x1600000_S1x1600000_1_0) shapeCasts_S1x1600000_S1600000

/-- The degree coefficient: ones scattered over the targets with the self loops appended, floored at one, inverse square
    root. -/
def disVec (x1 : (⟨S2x1600000, .i32⟩ : BufTy).Contents (Elt Ideal)) : (⟨S100000, .f32⟩ : BufTy).Contents (Elt Ideal) :=
  Host.rsqrt (maximumf
    (Host.scatterAdd scatter_S100000_S1700000x1_S1700000_n_0_0_1
      (broadcastInDim S100000 ![] bcast_S_S100000 (constant (F := Ideal) S_ .f32 0x00000000#32))
      (broadcastInDim S1700000x1 ![0] bcast_S1700000_S1700000x1_0
        (concatenate S1700000 0 [⟨S1600000, dstVec x1⟩, ⟨S100000, iotaInDim S100000 32 0⟩] concatenates_S1600000_S100000_S1700000_d0))
      (broadcastInDim S1700000 ![] bcast_S_S1700000 (constant (F := Ideal) S_ .f32 0x3F800000#32)))
    (broadcastInDim S100000 ![] bcast_S_S100000 (constant (F := Ideal) S_ .f32 0x3F800000#32)))

/-- The coefficient kept as a column. -/
def disCol (x1 : (⟨S2x1600000, .i32⟩ : BufTy).Contents (Elt Ideal)) : (⟨S100000x1, .f32⟩ : BufTy).Contents (Elt Ideal) :=
  broadcastInDim S100000x1 ![0] bcast_S100000_S100000x1_0 (disVec x1)

theorem disCol_apply (x1 : (⟨S2x1600000, .i32⟩ : BufTy).Contents (Elt Ideal)) (r : Fin 100000) :
    disCol x1 (ix2 r (0 : Fin 1)) = disVec x1 (ix1 r) :=
  Idealize.ShloMosaic.HostBroadcast.vec_col_apply bcast_S100000_S100000x1_0 (disVec x1) (ix2 r (0 : Fin 1))

theorem srcVec_apply (x1 : (⟨S2x1600000, .i32⟩ : BufTy).Contents (Elt Ideal)) (e : Fin 1600000) :
    srcVec x1 (ix1 e) = x1 (ix2 (0 : Fin 2) e) := by
  unfold srcVec
  refine (shapeCast_apply _ shapeCasts_S1x1600000_S1600000 (ix1 e) (ix2 (0 : Fin 1) e) (by
    rw [Shape.rowMajor_val_two, Shape.rowMajor_val_one]; show 0 * 1600000 + e.val = e.val; omega)).trans ?_
  exact extractStridedSlice_apply ![0, 0] x1 slices_S2x1600000_S1x1600000_0_0 (ix2 (0 : Fin 1) e) (ix2 (0 : Fin 2) e)
    (fun a => match a with
      | ⟨0, _⟩ => by show (0 : Nat) = 0 + 0; omega
      | ⟨1, _⟩ => by show e.val = 0 + e.val; omega)

theorem dstVec_apply (x1 : (⟨S2x1600000, .i32⟩ : BufTy).Contents (Elt Ideal)) (e : Fin 1600000) :
    dstVec x1 (ix1 e) = x1 (ix2 (1 : Fin 2) e) := by
  unfold dstVec
  refine (shapeCast_apply _ shapeCasts_S1x1600000_S1600000 (ix1 e) (ix2 (0 : Fin 1) e) (by
    rw [Shape.rowMajor_val_two, Shape.rowMajor_val_one]; show 0 * 1600000 + e.val = e.val; omega)).trans ?_
  exact extractStridedSlice_apply ![1, 0] x1 slices_S2x1600000_S1x1600000_1_0 (ix2 (0 : Fin 1) e) (ix2 (1 : Fin 2) e)
    (fun a => match a with
      | ⟨0, _⟩ => by show (1 : Nat) = 1 + 0; omega
      | ⟨1, _⟩ => by show e.val = 0 + e.val; omega)

/-! ## The products' operands in their input format (the identity at the ideal instance) -/

def toBfX (x : (⟨S100000x128, .f32⟩ : BufTy).Contents (Elt Ideal)) : (⟨S100000x128, .bf16⟩ : BufTy).Contents (Elt Ideal) :=
  (truncf .bf16 (x : FVec Ideal S100000x128 .f32) bitsLt_bf16_f32 : FVec Ideal S100000x128 .bf16)
def toBfW1 (x : (⟨S128x128, .f32⟩ : BufTy).Contents (Elt Ideal)) : (⟨S128x128, .bf16⟩ : BufTy).Contents (Elt Ideal) :=
  (truncf .bf16 (x : FVec Ideal S128x128 .f32) bitsLt_bf16_f32 : FVec Ideal S128x128 .bf16)
def toBfW2 (x : (⟨S128x64, .f32⟩ : BufTy).Contents (Elt Ideal)) : (⟨S128x64, .bf16⟩ : BufTy).Contents (Elt Ideal) :=
  (truncf .bf16 (x : FVec Ideal S128x64 .f32) bitsLt_bf16_f32 : FVec Ideal S128x64 .bf16)

/-! ## The mean pool over the graph ids and the linear head -/

/-- Rows of h summed per graph id, divided by the graph's node count floored at one, times the head's weights, plus its
    bias, as a vector over the 64 graphs. -/
def tailT (h : (⟨S100000x64, .f32⟩ : BufTy).Contents (Elt Ideal)) (x2 : (⟨S100000, .i32⟩ : BufTy).Contents (Elt Ideal))
    (x7 : (⟨S64x1, .f32⟩ : BufTy).Contents (Elt Ideal)) (x8 : (⟨S1, .f32⟩ : BufTy).Contents (Elt Ideal)) :
    (⟨S64, .f32⟩ : BufTy).Contents (Elt Ideal) :=
  shapeCast S64
    (addf
      (Host.dotGeneral (φ₁ := .f32) (φ₂ := .f32) dot_S64x64_S64x1_S64x1_1_0_0_1_n_n none
        (Host.divf
          (Host.scatterAdd scatter_S64x64_S100000x1_S100000x64_1_0_0_1
            (broadcastInDim S64x64 ![] bcast_S_S64x64 (constant (F := Ideal) S_ .f32 0x00000000#32))
            (broadcastInDim S100000x1 ![0] bcast_S100000_S100000x1_0 x2) h)
          (broadcastInDim S64x64 ![0, 1] bcast_S64x1_S64x64_0_1
            (broadcastInDim S64x1 ![0] bcast_S64_S64x1_0
              (maximumf
                (Host.scatterAdd scatter_S64_S100000x1_S100000_n_0_0_1
                  (broadcastInDim S64 ![] bcast_S_S64 (constant (F := Ideal) S_ .f32 0x00000000#32))
                  (broadcastInDim S100000x1 ![0] bcast_S100000_S100000x1_0 x2)
                  (broadcastInDim S100000 ![] bcast_S_S100000 (constant (F := Ideal) S_ .f32 0x3F800000#32)))
                (broadcastInDim S64 ![] bcast_S_S64 (constant (F := Ideal) S_ .f32 0x3F800000#32))))))
        (x7 : FVec Ideal S64x1 .f32))
      (broadcastInDim S64x1 ![0, 1] bcast_S1x1_S64x1_0_1 (broadcastInDim S1x1 ![1] bcast_S1_S1x1_1 x8)))
    shapeCasts_S64x1_S64

/-! ## The aggregation of a 128-column layer -/

/-- coefficient · (scatter of the gathered rows of Q + Q) + bias. -/
def conv128 (Q : (⟨S100000x128, .f32⟩ : BufTy).Contents (Elt Ideal)) (dcol : (⟨S100000x1, .f32⟩ : BufTy).Contents (Elt Ideal))
    (sv dv : (⟨S1600000, .i32⟩ : BufTy).Contents (Elt Ideal)) (b : (⟨S128, .f32⟩ : BufTy).Contents (Elt Ideal)) :
    (⟨S100000x128, .f32⟩ : BufTy).Contents (Elt Ideal) :=
  addf
    (mulf (broadcastInDim S100000x128 ![0, 1] bcast_S100000x1_S100000x128_0_1 dcol)
      (addf
        (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 dv)
          (Host.gather gather_S100000x128_S1600000x1_S1600000x128_1_0_n_n_0_1_1128 Q
            (broadcastInDim S1600000x1 ![0] bcast_S1600000_S1600000x1_0
              (select (cmpi .slt sv (broadcastInDim S1600000 ![] bcast_S_S1600000 (constantI S_ 32 0#32)))
                (addi sv (broadcastInDim S1600000 ![] bcast_S_S1600000 (constantI S_ 32 100000#32))) sv))))
        Q))
    (broadcastInDim S100000x128 ![0, 1] bcast_S1x128_S100000x128_0_1 (broadcastInDim S1x128 ![1] bcast_S128_S1x128_1 b))

/-- The rectification. -/
def relu128 (y : (⟨S100000x128, .f32⟩ : BufTy).Contents (Elt Ideal)) : (⟨S100000x128, .f32⟩ : BufTy).Contents (Elt Ideal) :=
  maximumf y (broadcastInDim S100000x128 ![] bcast_S_S100000x128 (constant (F := Ideal) S_ .f32 0x00000000#32))

theorem relu128_apply (y : (⟨S100000x128, .f32⟩ : BufTy).Contents (Elt Ideal)) (i : S100000x128.Idx) :
    relu128 y i = max (y i) 0 := by
  unfold relu128
  rw [maximumf_apply, Idealize.ShloMosaic.HostBroadcast.scalar_apply, constant_apply, Ideal.ofBits_zero_f32]

/-! ## The aggregation of a 64-column layer -/

/-- coefficient · (scatter of the gathered rows of Q + Q) + bias. -/
def conv64 (Q : (⟨S100000x64, .f32⟩ : BufTy).Contents (Elt Ideal)) (dcol : (⟨S100000x1, .f32⟩ : BufTy).Contents (Elt Ideal))
    (sv dv : (⟨S1600000, .i32⟩ : BufTy).Contents (Elt Ideal)) (b : (⟨S64, .f32⟩ : BufTy).Contents (Elt Ideal)) :
    (⟨S100000x64, .f32⟩ : BufTy).Contents (Elt Ideal) :=
  addf
    (mulf (broadcastInDim S100000x64 ![0, 1] bcast_S100000x1_S100000x64_0_1 dcol)
      (addf
        (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 dv)
          (Host.gather gather_S100000x64_S1600000x1_S1600000x64_1_0_n_n_0_1_164 Q
            (broadcastInDim S1600000x1 ![0] bcast_S1600000_S1600000x1_0
              (select (cmpi .slt sv (broadcastInDim S1600000 ![] bcast_S_S1600000 (constantI S_ 32 0#32)))
                (addi sv (broadcastInDim S1600000 ![] bcast_S_S1600000 (constantI S_ 32 100000#32))) sv))))
        Q))
    (broadcastInDim S100000x64 ![0, 1] bcast_S1x64_S100000x64_0_1 (broadcastInDim S1x64 ![1] bcast_S64_S1x64_1 b))

/-- The rectification. -/
def relu64 (y : (⟨S100000x64, .f32⟩ : BufTy).Contents (Elt Ideal)) : (⟨S100000x64, .f32⟩ : BufTy).Contents (Elt Ideal) :=
  maximumf y (broadcastInDim S100000x64 ![] bcast_S_S100000x64 (constant (F := Ideal) S_ .f32 0x00000000#32))

theorem relu64_apply (y : (⟨S100000x64, .f32⟩ : BufTy).Contents (Elt Ideal)) (i : S100000x64.Idx) :
    relu64 y i = max (y i) 0 := by
  unfold relu64
  rw [maximumf_apply, Idealize.ShloMosaic.HostBroadcast.scalar_apply, constant_apply, Ideal.ofBits_zero_f32]

end Cert.KernelIdeal.KV

end
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.RegionValue.lean ====
/-
  What the two matrix-product kernels leave in their output arrays.

  Each kernel is launched over ten row blocks of 10000 rows. At a grid point the body loads a block of rows of the left
  operand, the whole right operand and the block's column of per-row coefficients, and stores
  (rows · right) scaled row by row by the coefficient. Entry (p, q) of the block is therefore
  (Σ_k x(p, k) · w(k, q)) · d(p): a change of float format is the identity at the ideal instance, and a product into the
  zero accumulator is the plain sum. Block t of the output array is rows 10000·t … 10000·t + 9999, the blocks tile the
  array, so the array ends holding the one function (r, q) ↦ (Σ_k x(r, k) · w(k, q)) · d(r) of the arrays the region was
  entered with.
-/
import proofs.«138132_j76630806496038_2_alg».proof.Proof.Gen.KernelIdeal.Frame
import proofs.«138132_j76630806496038_2_alg».proof.Proof.LibMatmulRows
import proofs.«138132_j76630806496038_2_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KV

open Cert.KernelIdeal Cert.KernelIdeal.Gen
open Idealize.ShloMosaic Idealize.ShloMosaic.TcCoe Idealize.SL.Sem Idealize.ShloMosaic.ValueIdx
open Idealize.ShloMosaic.Pipeline (Dat)

/-- Entry (r, q) of a matrix product whose rows are scaled by a column of coefficients. -/
def scaledProd {M K N : Nat} (x : (⟨2, ![M, K]⟩ : Shape).Idx → EReal) (w : (⟨2, ![K, N]⟩ : Shape).Idx → EReal)
    (d : (⟨2, ![M, 1]⟩ : Shape).Idx → EReal) (r : Fin M) (q : Fin N) : EReal :=
  (∑ k : Fin K, x (ix2 r k) * w (ix2 k q)) * d (ix2 r (0 : Fin 1))

/-- The same as one array. -/
def scaledProdArr {M K N : Nat} (x : (⟨2, ![M, K]⟩ : Shape).Idx → EReal) (w : (⟨2, ![K, N]⟩ : Shape).Idx → EReal)
    (d : (⟨2, ![M, 1]⟩ : Shape).Idx → EReal) : (⟨2, ![M, N]⟩ : Shape).Idx → EReal :=
  fun i => scaledProd x w d ⟨(i 0).val, idx2_lt0 i⟩ ⟨(i 1).val, idx2_lt1 i⟩

theorem scaledProdArr_ix2 {M K N : Nat} (x : (⟨2, ![M, K]⟩ : Shape).Idx → EReal) (w : (⟨2, ![K, N]⟩ : Shape).Idx → EReal)
    (d : (⟨2, ![M, 1]⟩ : Shape).Idx → EReal) (r : Fin M) (q : Fin N) :
    scaledProdArr x w d (ix2 r q) = scaledProd x w d r q := rfl

theorem hz2 : (![0, 0] : Fin 2 → Nat) = fun _ => 0 := funext fun a => by fin_cases a <;> rfl

variable (V : (c : Dev nD) → (b : Ref sig .tc) → Buf (Elt Ideal) ((c : Thread nD τ).loc b))

/-! ## The first product: 100000 x 128 by 128 x 128 -/

/-- The body's stored value at (p, q) of the block. -/
theorem pay0_apply (x0 : Vec Ideal S10000x128 .bf16) (x1 : Vec Ideal S128x128 .bf16) (x2 : Vec Ideal S10000x1 .f32)
    (p : Fin 10000) (q : Fin 128) :
    k0_pay1 x0 x1 x2 (ix2 p q) = scaledProd x0 x1 x2 p q := by
  unfold k0_pay1 scaledProd
  show matmul (F := Ideal) dot_S10000x128_S128x128_S10000x128_1_0_0_1_n_n none (shapeCast S10000x128 x0 shapeCasts_S10000x128_S10000x128)
        (shapeCast S128x128 x1 shapeCasts_S128x128_S128x128) (constant (F := Ideal) S10000x128 .f32 0x00000000#32) (ix2 p q)
      * broadcastTo S10000x128 (shapeCast S10000x1 x2 shapeCasts_S10000x1_S10000x1) broadcasts_S10000x1_S10000x128 (ix2 p q) = _
  rw [shapeCast_self, shapeCast_self, shapeCast_self]
  refine congrArg₂ (· * ·) ?_ ?_
  · exact Idealize.ShloMosaic.MatmulRows.matmul_zero_apply dot_S10000x128_S128x128_S10000x128_1_0_0_1_n_n none rfl rfl rfl rfl
      (fun _ _ => rfl) (fun _ _ => rfl) x0 x1 (ix2 p q)
  · exact Idealize.ShloMosaic.Keepdims.broadcastTo_a1_ab_apply x2 broadcasts_S10000x1_S10000x128 p q

/-- The printed index maps over the ten grid points: the row-block windows move with the output, the right operand
    stays, the output's block row is the point's number. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

/-- What point t writes back is block t of the scaled product of the arrays the region finds. -/
theorem flushed0_eq (c : Dev nD) (t : Fin cfg0.N) :
    (dat0 V c).flushed 3 t = ((cfg0.win 3).blk t).view.read (Elt Ideal)
      (scaledProdArr (V c main_v14) (V c main_v15) (V c main_v13)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S10000x1) hz2]
  obtain ⟨e00, e01, e10, e11, e20, e21, e30, e31, ht⟩ := idx_facts0 t
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (ix2 p q)
    = scaledProdArr (V c main_v14) (V c main_v15) (V c main_v13) (((cfg0.win 3).blk t).view.emb (ix2 p q))
  refine (pay0_apply (iblk0 V c 0 t) (iblk0 V c 1 t) (iblk0 V c 2 t) p q).trans ?_
  have hr : t.val * 10000 + p.val < 100000 := by have := p.isLt; omega
  have hemb : ((cfg0.win 3).blk t).view.emb (ix2 p q) = ix2 (⟨t.val * 10000 + p.val, hr⟩ : Fin 100000) q := by
    funext a; apply Fin.ext
    match a with
    | ⟨0, _⟩ => show win0_3.index t (0 : Fin 2) * 10000 + 1 * p.val = t.val * 10000 + p.val; rw [e30]; omega
    | ⟨1, _⟩ => show win0_3.index t (1 : Fin 2) * 128 + 1 * q.val = q.val; rw [e31]; omega
  rw [hemb, scaledProdArr_ix2]
  unfold scaledProd
  have h0 : ∀ k : Fin 128, (iblk0 V c 0 t : Vec Ideal S10000x128 .bf16) (ix2 p k)
      = V c main_v14 (ix2 (⟨t.val * 10000 + p.val, hr⟩ : Fin 100000) k) := fun k => by
    show V c main_v14 (((cfg0.win 0).blk t).view.emb (ix2 p k)) = _
    refine congrArg (V c main_v14) (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  have h1 : ∀ k : Fin 128, (iblk0 V c 1 t : Vec Ideal S128x128 .bf16) (ix2 k q) = V c main_v15 (ix2 k q) := fun k => by
    show V c main_v15 (((cfg0.win 1).blk t).view.emb (ix2 k q)) = _
    refine congrArg (V c main_v15) (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  have h2 : (iblk0 V c 2 t : Vec Ideal S10000x1 .f32) (ix2 p (0 : Fin 1))
      = V c main_v13 (ix2 (⟨t.val * 10000 + p.val, hr⟩ : Fin 100000) (0 : Fin 1)) := by
    show V c main_v13 (((cfg0.win 2).blk t).view.emb (ix2 p (0 : Fin 1))) = _
    refine congrArg (V c main_v13) (funext fun a => Fin.ext ?_)
    match a with
    | ⟨0, _⟩ => show win0_2.index t (0 : Fin 2) * 10000 + 1 * p.val = t.val * 10000 + p.val; rw [e20]; omega
    | ⟨1, _⟩ => show win0_2.index t (1 : Fin 2) * 1 + 1 * 0 = 0; rw [e21]
  rw [h2]
  exact congrArg (· * _) (Finset.sum_congr rfl fun k _ => by rw [h0 k, h1 k])

/-- The ten blocks tile the array: row r lies in block r / 10000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨e00, e01, e10, e11, e20, e21, e30, e31, ht⟩ := idx_facts0 t
  refine ⟨t, flush0_3 t, ?_⟩
  show i ∈ ((View.whole main_v16).slice (win0_3.rect t)).set
  rw [View.set_slice_whole, Rect.mem_set_unit]
  intro a
  have htv : t.val = (i 0).val / 10000 := rfl
  match a with
  | ⟨0, _⟩ => show win0_3.index t (0 : Fin 2) * 10000 ≤ (i 0).val ∧ (i 0).val < win0_3.index t (0 : Fin 2) * 10000 + 10000; rw [e30, htv]; omega
  | ⟨1, _⟩ => show win0_3.index t (1 : Fin 2) * 128 ≤ (i 1).val ∧ (i 1).val < win0_3.index t (1 : Fin 2) * 128 + 128; rw [e31]; omega

/-- The output array after the first region. -/
theorem region0_value (c : Dev nD) :
    (dat0 V c).arrAt 3 cfg0.N = scaledProdArr (V c main_v14) (V c main_v15) (V c main_v13) :=
  (dat0 V c).arrAt_eq_of_cover 3 _ (fun t _ => flushed0_eq V c t) (cover0)

/-! ## The second product: 100000 x 128 by 128 x 64 -/

/-- The body's stored value at (p, q) of the block. -/
theorem pay1_apply (x0 : Vec Ideal S10000x128 .bf16) (x1 : Vec Ideal S128x64 .bf16) (x2 : Vec Ideal S10000x1 .f32)
    (p : Fin 10000) (q : Fin 64) :
    k1_pay1 x0 x1 x2 (ix2 p q) = scaledProd x0 x1 x2 p q := by
  unfold k1_pay1 scaledProd
  show matmul (F := Ideal) dot_S10000x128_S128x64_S10000x64_1_0_0_1_n_n none (shapeCast S10000x128 x0 shapeCasts_S10000x128_S10000x128)
        (shapeCast S128x64 x1 shapeCasts_S128x64_S128x64) (constant (F := Ideal) S10000x64 .f32 0x00000000#32) (ix2 p q)
      * broadcastTo S10000x64 (shapeCast S10000x1 x2 shapeCasts_S10000x1_S10000x1) broadcasts_S10000x1_S10000x64 (ix2 p q) = _
  rw [shapeCast_self, shapeCast_self, shapeCast_self]
  refine congrArg₂ (· * ·) ?_ ?_
  · exact Idealize.ShloMosaic.MatmulRows.matmul_zero_apply dot_S10000x128_S128x64_S10000x64_1_0_0_1_n_n none rfl rfl rfl rfl
      (fun _ _ => rfl) (fun _ _ => rfl) x0 x1 (ix2 p q)
  · exact Idealize.ShloMosaic.Keepdims.broadcastTo_a1_ab_apply x2 broadcasts_S10000x1_S10000x64 p q

/-- The printed index maps over the ten grid points: the row-block windows move with the output, the right operand
    stays, the output's block row is the point's number. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 10 :=
  (by decide +kernel : ∀ t : Fin grid1.N, _)

/-- What point t writes back is block t of the scaled product of the arrays the region finds. -/
theorem flushed1_eq (c : Dev nD) (t : Fin cfg1.N) :
    (dat1 V c).flushed 3 t = ((cfg1.win 3).blk t).view.read (Elt Ideal)
      (scaledProdArr (V c main_v34) (V c main_v35) (V c main_v13)) := by
  show (cfg1.win 3).cut (grid1.coords t) ((dat1 V c).after 3 t) = _
  rw [after1_3]
  unfold out1_3
  rw [View.canon_unit_zero hz2]
  simp only [View.ld_unit_zero (S := S10000x128) hz2, View.ld_unit_zero (S := S128x64) hz2, View.ld_unit_zero (S := S10000x1) hz2]
  obtain ⟨e00, e01, e10, e11, e20, e21, e30, e31, ht⟩ := idx_facts1 t
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
    = scaledProdArr (V c main_v34) (V c main_v35) (V c main_v13) (((cfg1.win 3).blk t).view.emb (ix2 p q))
  refine (pay1_apply (iblk1 V c 0 t) (iblk1 V c 1 t) (iblk1 V c 2 t) p q).trans ?_
  have hr : t.val * 10000 + p.val < 100000 := by have := p.isLt; omega
  have hemb : ((cfg1.win 3).blk t).view.emb (ix2 p q) = ix2 (⟨t.val * 10000 + p.val, hr⟩ : Fin 100000) q := by
    funext a; apply Fin.ext
    match a with
    | ⟨0, _⟩ => show win1_3.index t (0 : Fin 2) * 10000 + 1 * p.val = t.val * 10000 + p.val; rw [e30]; omega
    | ⟨1, _⟩ => show win1_3.index t (1 : Fin 2) * 64 + 1 * q.val = q.val; rw [e31]; omega
  rw [hemb, scaledProdArr_ix2]
  unfold scaledProd
  have h0 : ∀ k : Fin 128, (iblk1 V c 0 t : Vec Ideal S10000x128 .bf16) (ix2 p k)
      = V c main_v34 (ix2 (⟨t.val * 10000 + p.val, hr⟩ : Fin 100000) k) := fun k => by
    show V c main_v34 (((cfg1.win 0).blk t).view.emb (ix2 p k)) = _
    refine congrArg (V c main_v34) (funext fun a => Fin.ext ?_)
    match a with
    | ⟨0, _⟩ => show win1_0.index t (0 : Fin 2) * 10000 + 1 * p.val = t.val * 10000 + p.val; rw [e00]; omega
    | ⟨1, _⟩ => show win1_0.index t (1 : Fin 2) * 128 + 1 * k.val = k.val; rw [e01]; omega
  have h1 : ∀ k : Fin 128, (iblk1 V c 1 t : Vec Ideal S128x64 .bf16) (ix2 k q) = V c main_v35 (ix2 k q) := fun k => by
    show V c main_v35 (((cfg1.win 1).blk t).view.emb (ix2 k q)) = _
    refine congrArg (V c main_v35) (funext fun a => Fin.ext ?_)
    match a with
    | ⟨0, _⟩ => show win1_1.index t (0 : Fin 2) * 128 + 1 * k.val = k.val; rw [e10]; omega
    | ⟨1, _⟩ => show win1_1.index t (1 : Fin 2) * 64 + 1 * q.val = q.val; rw [e11]; omega
  have h2 : (iblk1 V c 2 t : Vec Ideal S10000x1 .f32) (ix2 p (0 : Fin 1))
      = V c main_v13 (ix2 (⟨t.val * 10000 + p.val, hr⟩ : Fin 100000) (0 : Fin 1)) := by
    show V c main_v13 (((cfg1.win 2).blk t).view.emb (ix2 p (0 : Fin 1))) = _
    refine congrArg (V c main_v13) (funext fun a => Fin.ext ?_)
    match a with
    | ⟨0, _⟩ => show win1_2.index t (0 : Fin 2) * 10000 + 1 * p.val = t.val * 10000 + p.val; rw [e20]; omega
    | ⟨1, _⟩ => show win1_2.index t (1 : Fin 2) * 1 + 1 * 0 = 0; rw [e21]
  rw [h2]
  exact congrArg (· * _) (Finset.sum_congr rfl fun k _ => by rw [h0 k, h1 k])

/-- The ten blocks tile the array: row r lies in block r / 10000. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨e00, e01, e10, e11, e20, e21, e30, e31, ht⟩ := idx_facts1 t
  refine ⟨t, flush1_3 t, ?_⟩
  show i ∈ ((View.whole main_v36).slice (win1_3.rect t)).set
  rw [View.set_slice_whole, Rect.mem_set_unit]
  intro a
  have htv : t.val = (i 0).val / 10000 := rfl
  match a with
  | ⟨0, _⟩ => show win1_3.index t (0 : Fin 2) * 10000 ≤ (i 0).val ∧ (i 0).val < win1_3.index t (0 : Fin 2) * 10000 + 10000; rw [e30, htv]; omega
  | ⟨1, _⟩ => show win1_3.index t (1 : Fin 2) * 64 ≤ (i 1).val ∧ (i 1).val < win1_3.index t (1 : Fin 2) * 64 + 64; rw [e31]; omega

/-- The output array after the second region. -/
theorem region1_value (c : Dev nD) :
    (dat1 V c).arrAt 3 cfg1.N = scaledProdArr (V c main_v34) (V c main_v35) (V c main_v13) :=
  (dat1 V c).arrAt_eq_of_cover 3 _ (fun t _ => flushed1_eq V c t) (cover1)

end Cert.KernelIdeal.KV

end
-- ==== Proof.KernelChain.lean ====
/-
  The fold of buffer contents through @main, read back to the arguments.

  The run leaves the result at the last boundary's contents. Walking the fold backwards: the tail reads the second
  layer's rectified aggregation, which reads the second kernel's output array, which the region leaves at the scaled product
  of the first layer's result (rounded to the product's input format: the identity here) with the second weight matrix; and
  so on down to the launch contents. The index vectors, the degree coefficient and the arguments are written once, before
  the first kernel, and no later operation or region writes them.
-/
import proofs.«138132_j76630806496038_2_alg».proof.Proof.Gen.KernelIdeal.Frame
import proofs.«138132_j76630806496038_2_alg».proof.Proof.KernelTerms
import proofs.«138132_j76630806496038_2_alg».proof.Proof.RegionValue
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## Before the first kernel -/

theorem W1_main_arg0 (c : Dev nD) : W1 m ρ c (Proc.devRef .tc main_arg0) = m ((c : Thread nD τ).loc main_arg0) := by
  dsimp only [W1, hostOps0]; after_results_simp <;> rfl
theorem W1_main_arg1 (c : Dev nD) : W1 m ρ c (Proc.devRef .tc main_arg1) = m ((c : Thread nD τ).loc main_arg1) := by
  dsimp only [W1, hostOps0]; after_results_simp <;> rfl
theorem W1_main_arg2 (c : Dev nD) : W1 m ρ c (Proc.devRef .tc main_arg2) = m ((c : Thread nD τ).loc main_arg2) := by
  dsimp only [W1, hostOps0]; after_results_simp <;> rfl
theorem W1_main_arg3 (c : Dev nD) : W1 m ρ c (Proc.devRef .tc main_arg3) = m ((c : Thread nD τ).loc main_arg3) := by
  dsimp only [W1, hostOps0]; after_results_simp <;> rfl
theorem W1_main_arg4 (c : Dev nD) : W1 m ρ c (Proc.devRef .tc main_arg4) = m ((c : Thread nD τ).loc main_arg4) := by
  dsimp only [W1, hostOps0]; after_results_simp <;> rfl
theorem W1_main_arg5 (c : Dev nD) : W1 m ρ c (Proc.devRef .tc main_arg5) = m ((c : Thread nD τ).loc main_arg5) := by
  dsimp only [W1, hostOps0]; after_results_simp <;> rfl
theorem W1_main_arg6 (c : Dev nD) : W1 m ρ c (Proc.devRef .tc main_arg6) = m ((c : Thread nD τ).loc main_arg6) := by
  dsimp only [W1, hostOps0]; after_results_simp <;> rfl
theorem W1_main_arg7 (c : Dev nD) : W1 m ρ c (Proc.devRef .tc main_arg7) = m ((c : Thread nD τ).loc main_arg7) := by
  dsimp only [W1, hostOps0]; after_results_simp <;> rfl
theorem W1_main_arg8 (c : Dev nD) : W1 m ρ c (Proc.devRef .tc main_arg8) = m ((c : Thread nD τ).loc main_arg8) := by
  dsimp only [W1, hostOps0]; after_results_simp <;> rfl

theorem W1_v1 (c : Dev nD) : W1 m ρ c (Proc.devRef .tc main_v1) = srcVec (m ((c : Thread nD τ).loc main_arg1)) := by
  dsimp only [W1, hostOps0]; after_results_simp; rfl
theorem W1_v3 (c : Dev nD) : W1 m ρ c (Proc.devRef .tc main_v3) = dstVec (m ((c : Thread nD τ).loc main_arg1)) := by
  dsimp only [W1, hostOps0]; after_results_simp; rfl
theorem W1_v14 (c : Dev nD) : W1 m ρ c (Proc.devRef .tc main_v14) = toBfX (m ((c : Thread nD τ).loc main_arg0)) := by
  dsimp only [W1, hostOps0]; after_results_simp; rfl
theorem W1_v15 (c : Dev nD) : W1 m ρ c (Proc.devRef .tc main_v15) = toBfW1 (m ((c : Thread nD τ).loc main_arg3)) := by
  dsimp only [W1, hostOps0]; after_results_simp; rfl
theorem W1_v13 (c : Dev nD) : W1 m ρ c (Proc.devRef .tc main_v13) = disCol (m ((c : Thread nD τ).loc main_arg1)) := by
  dsimp only [W1, hostOps0]; after_results; rfl

/-! ## Across the first kernel and the first layer's host operations -/

theorem W2_v13 (c : Dev nD) : W2 m ρ c (Proc.devRef .tc main_v13) = W1 m ρ c (Proc.devRef .tc main_v13) :=
  (W2_arr m ρ c 2).trans (((dat0 (V1 m ρ) c).arrAt_in 2 rfl _).trans (A_eq0 (V1 m ρ) c 2))
theorem W2_v16 (c : Dev nD) : W2 m ρ c (Proc.devRef .tc main_v16)
    = scaledProdArr (W1 m ρ c (Proc.devRef .tc main_v14)) (W1 m ρ c (Proc.devRef .tc main_v15)) (W1 m ρ c (Proc.devRef .tc main_v13)) :=
  (W2_arr m ρ c 3).trans (region0_value (V1 m ρ) c)
theorem W2_main_v1 (c : Dev nD) : W2 m ρ c (Proc.devRef .tc main_v1) = W1 m ρ c (Proc.devRef .tc main_v1) := W2_of_ne m ρ c main_v1 (by decide)
theorem W2_main_v3 (c : Dev nD) : W2 m ρ c (Proc.devRef .tc main_v3) = W1 m ρ c (Proc.devRef .tc main_v3) := W2_of_ne m ρ c main_v3 (by decide)
theorem W2_main_arg2 (c : Dev nD) : W2 m ρ c (Proc.devRef .tc main_arg2) = W1 m ρ c (Proc.devRef .tc main_arg2) := W2_of_ne m ρ c main_arg2 (by decide)
theorem W2_main_arg4 (c : Dev nD) : W2 m ρ c (Proc.devRef .tc main_arg4) = W1 m ρ c (Proc.devRef .tc main_arg4) := W2_of_ne m ρ c main_arg4 (by decide)
theorem W2_main_arg5 (c : Dev nD) : W2 m ρ c (Proc.devRef .tc main_arg5) = W1 m ρ c (Proc.devRef .tc main_arg5) := W2_of_ne m ρ c main_arg5 (by decide)
theorem W2_main_arg6 (c : Dev nD) : W2 m ρ c (Proc.devRef .tc main_arg6) = W1 m ρ c (Proc.devRef .tc main_arg6) := W2_of_ne m ρ c main_arg6 (by decide)
theorem W2_main_arg7 (c : Dev nD) : W2 m ρ c (Proc.devRef .tc main_arg7) = W1 m ρ c (Proc.devRef .tc main_arg7) := W2_of_ne m ρ c main_arg7 (by decide)
theorem W2_main_arg8 (c : Dev nD) : W2 m ρ c (Proc.devRef .tc main_arg8) = W1 m ρ c (Proc.devRef .tc main_arg8) := W2_of_ne m ρ c main_arg8 (by decide)

theorem W5_v34 (c : Dev nD) : W5 m ρ c (Proc.devRef .tc main_v34)
    = toBfX (relu128 (conv128 (W2 m ρ c (Proc.devRef .tc main_v16)) (W2 m ρ c (Proc.devRef .tc main_v13))
        (W2 m ρ c (Proc.devRef .tc main_v1)) (W2 m ρ c (Proc.devRef .tc main_v3)) (W2 m ρ c (Proc.devRef .tc main_arg4)))) := by
  dsimp only [W5, W4, W3, hostOps1, hostOps1_1, hostOps1_2]; after_results_simp; rfl
theorem W5_v35 (c : Dev nD) : W5 m ρ c (Proc.devRef .tc main_v35) = toBfW2 (W2 m ρ c (Proc.devRef .tc main_arg5)) := by
  dsimp only [W5, W4, W3, hostOps1, hostOps1_1, hostOps1_2]; after_results_simp; rfl
theorem W5_main_v13 (c : Dev nD) : W5 m ρ c (Proc.devRef .tc main_v13) = W2 m ρ c (Proc.devRef .tc main_v13) := by
  dsimp only [W5, W4, W3, hostOps1, hostOps1_1, hostOps1_2]; after_results_simp
theorem W5_main_v1 (c : Dev nD) : W5 m ρ c (Proc.devRef .tc main_v1) = W2 m ρ c (Proc.devRef .tc main_v1) := by
  dsimp only [W5, W4, W3, hostOps1, hostOps1_1, hostOps1_2]; after_results_simp
theorem W5_main_v3 (c : Dev nD) : W5 m ρ c (Proc.devRef .tc main_v3) = W2 m ρ c (Proc.devRef .tc main_v3) := by
  dsimp only [W5, W4, W3, hostOps1, hostOps1_1, hostOps1_2]; after_results_simp
theorem W5_main_arg2 (c : Dev nD) : W5 m ρ c (Proc.devRef .tc main_arg2) = W2 m ρ c (Proc.devRef .tc main_arg2) := by
  dsimp only [W5, W4, W3, hostOps1, hostOps1_1, hostOps1_2]; after_results_simp
theorem W5_main_arg4 (c : Dev nD) : W5 m ρ c (Proc.devRef .tc main_arg4) = W2 m ρ c (Proc.devRef .tc main_arg4) := by
  dsimp only [W5, W4, W3, hostOps1, hostOps1_1, hostOps1_2]; after_results_simp
theorem W5_main_arg5 (c : Dev nD) : W5 m ρ c (Proc.devRef .tc main_arg5) = W2 m ρ c (Proc.devRef .tc main_arg5) := by
  dsimp only [W5, W4, W3, hostOps1, hostOps1_1, hostOps1_2]; after_results_simp
theorem W5_main_arg6 (c : Dev nD) : W5 m ρ c (Proc.devRef .tc main_arg6) = W2 m ρ c (Proc.devRef .tc main_arg6) := by
  dsimp only [W5, W4, W3, hostOps1, hostOps1_1, hostOps1_2]; after_results_simp
theorem W5_main_arg7 (c : Dev nD) : W5 m ρ c (Proc.devRef .tc main_arg7) = W2 m ρ c (Proc.devRef .tc main_arg7) := by
  dsimp only [W5, W4, W3, hostOps1, hostOps1_1, hostOps1_2]; after_results_simp
theorem W5_main_arg8 (c : Dev nD) : W5 m ρ c (Proc.devRef .tc main_arg8) = W2 m ρ c (Proc.devRef .tc main_arg8) := by
  dsimp only [W5, W4, W3, hostOps1, hostOps1_1, hostOps1_2]; after_results_simp

/-! ## Across the second kernel -/

theorem W6_v13 (c : Dev nD) : W6 m ρ c (Proc.devRef .tc main_v13) = W5 m ρ c (Proc.devRef .tc main_v13) :=
  (W6_arr m ρ c 2).trans (((dat1 (V5 m ρ) c).arrAt_in 2 rfl _).trans (A_eq1 (V5 m ρ) c 2))
theorem W6_v36 (c : Dev nD) : W6 m ρ c (Proc.devRef .tc main_v36)
    = scaledProdArr (W5 m ρ c (Proc.devRef .tc main_v34)) (W5 m ρ c (Proc.devRef .tc main_v35)) (W5 m ρ c (Proc.devRef .tc main_v13)) :=
  (W6_arr m ρ c 3).trans (region1_value (V5 m ρ) c)
theorem W6_main_v1 (c : Dev nD) : W6 m ρ c (Proc.devRef .tc main_v1) = W5 m ρ c (Proc.devRef .tc main_v1) := W6_of_ne m ρ c main_v1 (by decide)
theorem W6_main_v3 (c : Dev nD) : W6 m ρ c (Proc.devRef .tc main_v3) = W5 m ρ c (Proc.devRef .tc main_v3) := W6_of_ne m ρ c main_v3 (by decide)
theorem W6_main_arg2 (c : Dev nD) : W6 m ρ c (Proc.devRef .tc main_arg2) = W5 m ρ c (Proc.devRef .tc main_arg2) := W6_of_ne m ρ c main_arg2 (by decide)
theorem W6_main_arg4 (c : Dev nD) : W6 m ρ c (Proc.devRef .tc main_arg4) = W5 m ρ c (Proc.devRef .tc main_arg4) := W6_of_ne m ρ c main_arg4 (by decide)
theorem W6_main_arg5 (c : Dev nD) : W6 m ρ c (Proc.devRef .tc main_arg5) = W5 m ρ c (Proc.devRef .tc main_arg5) := W6_of_ne m ρ c main_arg5 (by decide)
theorem W6_main_arg6 (c : Dev nD) : W6 m ρ c (Proc.devRef .tc main_arg6) = W5 m ρ c (Proc.devRef .tc main_arg6) := W6_of_ne m ρ c main_arg6 (by decide)
theorem W6_main_arg7 (c : Dev nD) : W6 m ρ c (Proc.devRef .tc main_arg7) = W5 m ρ c (Proc.devRef .tc main_arg7) := W6_of_ne m ρ c main_arg7 (by decide)
theorem W6_main_arg8 (c : Dev nD) : W6 m ρ c (Proc.devRef .tc main_arg8) = W5 m ρ c (Proc.devRef .tc main_arg8) := W6_of_ne m ρ c main_arg8 (by decide)

/-! ## The second layer's host operations and the tail -/

theorem W9_v70 (c : Dev nD) : W9 m ρ c (Proc.devRef .tc main_v70)
    = tailT (relu64 (conv64 (W6 m ρ c (Proc.devRef .tc main_v36)) (W6 m ρ c (Proc.devRef .tc main_v13))
        (W6 m ρ c (Proc.devRef .tc main_v1)) (W6 m ρ c (Proc.devRef .tc main_v3)) (W6 m ρ c (Proc.devRef .tc main_arg6))))
      (W6 m ρ c (Proc.devRef .tc main_arg2)) (W6 m ρ c (Proc.devRef .tc main_arg7)) (W6 m ρ c (Proc.devRef .tc main_arg8)) := by
  dsimp only [W9, W8, W7, hostOps2, hostOps2_1, hostOps2_2]; after_results_simp; rfl

/-! ## The result as a function of the arguments -/

/-- The first layer's rectified result. -/
def h1K (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal)) :
    (⟨S100000x128, .f32⟩ : BufTy).Contents (Elt Ideal) :=
  relu128 (conv128 (scaledProdArr (toBfX x0) (toBfW1 x3) (disCol x1)) (disCol x1) (srcVec x1) (dstVec x1) x4)

/-- The second layer's rectified result. -/
def h2K (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x64, .f32⟩ : BufTy).Contents (Elt Ideal)) (x6 : (⟨S64, .f32⟩ : BufTy).Contents (Elt Ideal)) :
    (⟨S100000x64, .f32⟩ : BufTy).Contents (Elt Ideal) :=
  relu64 (conv64 (scaledProdArr (toBfX (h1K x0 x1 x3 x4)) (toBfW2 x5) (disCol x1)) (disCol x1) (srcVec x1) (dstVec x1) x6)

/-- The program's result. -/
theorem W9_value (c : Dev nD) : W9 m ρ c (Proc.devRef .tc main_v70)
    = tailT (h2K (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)))
      (m ((c : Thread nD τ).loc main_arg2)) (m ((c : Thread nD τ).loc main_arg7)) (m ((c : Thread nD τ).loc main_arg8)) := by
  rw [W9_v70, W6_v36, W6_v13, W6_main_v1, W6_main_v3, W6_main_arg6, W6_main_arg2, W6_main_arg7, W6_main_arg8,
    W5_v34, W5_v35, W5_main_v13, W5_main_v1, W5_main_v3, W5_main_arg6, W5_main_arg2, W5_main_arg7, W5_main_arg8,
    W2_v16, W2_v13, W2_main_v1, W2_main_v3, W2_main_arg4, W2_main_arg5, W2_main_arg6, W2_main_arg2, W2_main_arg7, W2_main_arg8,
    W1_v14, W1_v15, W1_v13, W1_v1, W1_v3, W1_main_arg4, W1_main_arg5, W1_main_arg6, W1_main_arg2, W1_main_arg7, W1_main_arg8]
  rfl

end Cert.KernelIdeal.KV

end
-- ==== Proof.KernelLayers.lean ====
/-
  A kernel's scaled product fed to the host's aggregation is one layer of the scale-first arrangement.

  With Q(r, c) = (Σ_k X(r, k) · W(k, c)) · dis r the array a matrix-product kernel leaves, the host's aggregation at (n, c),
  dis n · (Σ over the edges into n of Q(src e, c) + Q(n, c)) + b c, is the layer `GcnSpec.convK` of the column
  r ↦ Σ_k X(r, k) · W(k, c): the edges' targets are row 1 of the edge-index array read signed, their source rows row 0
  wrapped and clamped. The aggregation is read at an index once, for any number of columns; the 128-column and the
  64-column layers are its two instances.
-/
import proofs.«138132_j76630806496038_2_alg».proof.Proof.KernelTerms
import proofs.«138132_j76630806496038_2_alg».proof.Proof.RegionValue

set_option maxRecDepth 16384

noncomputable section

open scoped BigOperators

namespace Cert.KernelIdeal.KV

open Cert.KernelIdeal Cert.KernelIdeal.Gen
open Idealize.ShloMosaic Idealize.ShloMosaic.TcCoe Idealize.SL.Sem Idealize.ShloMosaic.ValueIdx
open Idealize.ShloMosaic.SegmentSum

/-! ## The two index columns -/

section Columns
variable (sv dv : (⟨S1600000, .i32⟩ : BufTy).Contents (Elt Ideal))

/-- The target column reads, at edge `e`, the target vector's word there. -/
theorem dcolT (e : Fin 1600000) :
    (broadcastInDim S1600000x1 ![0] bcast_S1600000_S1600000x1_0 dv (ix2 e (0 : Fin 1))).toInt = (dv (ix1 e)).toInt :=
  GcnSpec.dst_col_int (E := 1600000) bcast_S1600000_S1600000x1_0 dv e

/-- The source column (the source vector wrapped once, made a column) has, at edge `e`, the wrapped and clamped row of
    the source vector's word there. -/
theorem scolS (e : Fin 1600000) :
    clampRow 100000 (by decide) (broadcastInDim S1600000x1 ![0] bcast_S1600000_S1600000x1_0
      (select (cmpi .slt sv (broadcastInDim S1600000 ![] bcast_S_S1600000 (constantI S_ 32 0#32)))
        (addi sv (broadcastInDim S1600000 ![] bcast_S_S1600000 (constantI S_ 32 100000#32))) sv)) e
      = GcnSpec.rowOf 100000 (by decide) (sv (ix1 e)) :=
  GcnSpec.src_col_row (N := 100000) (E := 1600000) (by decide) bcast_S1600000_S1600000x1_0 sv
    (broadcastInDim S1600000 ![] bcast_S_S1600000 (constantI S_ 32 0#32))
    (broadcastInDim S1600000 ![] bcast_S_S1600000 (constantI S_ 32 100000#32))
    (fun i => Idealize.ShloMosaic.HostBroadcast.scalar_apply ![] bcast_S_S1600000 (constantI S_ 32 0#32) i)
    (fun i => Idealize.ShloMosaic.HostBroadcast.scalar_apply ![] bcast_S_S1600000 (constantI S_ 32 100000#32) i) e

end Columns

/-! ## The aggregation at an index, for any number of columns

coefficient · (rows of Q gathered at the source column and added into the rows the target column names, plus Q) + bias,
read at `(n, c)`: the coefficient of `n` times (the sum over the edges whose target word reads `n` of Q at the edge's
source row, plus Q at `n`), plus the bias of `c`. -/

/-- The aggregation at `(n, c)`. -/
theorem agg_apply {D : Nat}
    (ds : ScatterDims ⟨2, ![100000, D]⟩ ⟨2, ![1600000, 1]⟩ ⟨2, ![1600000, D]⟩)
    (wfs : ScatterDims.WF ⟨2, ![100000, D]⟩ ⟨2, ![1600000, 1]⟩ ⟨2, ![1600000, D]⟩ [1] [0] [0] 1)
    (hds : ds = rowScatterDims 100000 1600000 D wfs)
    (dg : GatherDims ⟨2, ![100000, D]⟩ ⟨2, ![1600000, 1]⟩ ⟨2, ![1600000, D]⟩)
    (wfg : GatherDims.WF ⟨2, ![100000, D]⟩ ⟨2, ![1600000, 1]⟩ ⟨2, ![1600000, D]⟩ [1] [0] [] [0] [] 1 ![1, D])
    (hdg : dg = rowGatherDims 100000 1600000 D wfg)
    (h0 : S_.BroadcastsInDim ⟨2, ![100000, D]⟩ ![])
    (hc : (⟨2, ![100000, 1]⟩ : Shape).BroadcastsInDim ⟨2, ![100000, D]⟩ ![0, 1])
    (hb1 : (⟨1, ![D]⟩ : Shape).BroadcastsInDim ⟨2, ![1, D]⟩ ![1])
    (hb2 : (⟨2, ![1, D]⟩ : Shape).BroadcastsInDim ⟨2, ![100000, D]⟩ ![0, 1])
    (Q : FVec Ideal ⟨2, ![100000, D]⟩ .f32) (dcol : FVec Ideal ⟨2, ![100000, 1]⟩ .f32)
    (sv dv : (⟨S1600000, .i32⟩ : BufTy).Contents (Elt Ideal)) (b : FVec Ideal ⟨1, ![D]⟩ .f32)
    (n : Fin 100000) (c : Fin D) :
    addf
        (mulf (broadcastInDim ⟨2, ![100000, D]⟩ ![0, 1] hc dcol)
          (addf
            (Host.scatterAdd ds
              (broadcastInDim ⟨2, ![100000, D]⟩ ![] h0 (constant (F := Ideal) S_ .f32 0x00000000#32))
              (broadcastInDim S1600000x1 ![0] bcast_S1600000_S1600000x1_0 dv)
              (Host.gather dg Q
                (broadcastInDim S1600000x1 ![0] bcast_S1600000_S1600000x1_0
                  (select (cmpi .slt sv (broadcastInDim S1600000 ![] bcast_S_S1600000 (constantI S_ 32 0#32)))
                  (addi sv (broadcastInDim S1600000 ![] bcast_S_S1600000 (constantI S_ 32 100000#32))) sv))))
            Q))
        (broadcastInDim ⟨2, ![100000, D]⟩ ![0, 1] hb2 (broadcastInDim ⟨2, ![1, D]⟩ ![1] hb1 b)) (ix2 n c)
      = dcol (ix2 n (0 : Fin 1))
          * ((∑ e ∈ Finset.univ.filter (fun e : Fin 1600000 => (dv (ix1 e)).toInt = (n.val : ℤ)),
                Q (ix2 (GcnSpec.rowOf 100000 (by decide) (sv (ix1 e))) c)) + Q (ix2 n c))
        + b (ix1 c) := by
  have hzero : ∀ j, broadcastInDim ⟨2, ![100000, D]⟩ ![] h0 (constant (F := Ideal) S_ .f32 0x00000000#32) j = 0 :=
    fun j => by rw [Idealize.ShloMosaic.HostBroadcast.scalar_apply, constant_apply, Ideal.ofBits_zero_f32]
  have hcoef : broadcastInDim ⟨2, ![100000, D]⟩ ![0, 1] hc dcol (ix2 n c) = dcol (ix2 n (0 : Fin 1)) :=
    Idealize.ShloMosaic.HostBroadcast.col_cols_apply hc dcol (ix2 n c)
  have hbias : broadcastInDim ⟨2, ![100000, D]⟩ ![0, 1] hb2 (broadcastInDim ⟨2, ![1, D]⟩ ![1] hb1 b) (ix2 n c) = b (ix1 c) :=
    Idealize.ShloMosaic.HostBroadcast.bias_apply hb1 hb2 b (ix2 n c)
  have key := GcnSpec.scale_first_read_ops (N := 100000) (E := 1600000) (D := D) (by decide) ds wfs hds dg wfg hdg Q
    (broadcastInDim ⟨2, ![100000, D]⟩ ![] h0 (constant (F := Ideal) S_ .f32 0x00000000#32))
    (broadcastInDim ⟨2, ![100000, D]⟩ ![0, 1] hc dcol)
    (broadcastInDim ⟨2, ![100000, D]⟩ ![0, 1] hb2 (broadcastInDim ⟨2, ![1, D]⟩ ![1] hb1 b))
    hzero
    (broadcastInDim S1600000x1 ![0] bcast_S1600000_S1600000x1_0 dv)
    (broadcastInDim S1600000x1 ![0] bcast_S1600000_S1600000x1_0
      (select (cmpi .slt sv (broadcastInDim S1600000 ![] bcast_S_S1600000 (constantI S_ 32 0#32)))
                  (addi sv (broadcastInDim S1600000 ![] bcast_S_S1600000 (constantI S_ 32 100000#32))) sv))
    n c
  rw [key, hcoef, hbias]
  refine congrArg (fun z => dcol (ix2 n (0 : Fin 1)) * (z + Q (ix2 n c)) + b (ix1 c)) ?_
  refine Finset.sum_congr (Finset.filter_congr fun e _ => by rw [dcolT]) fun e _ => by rw [scolS]

/-- The aggregation of the 128-column layer at `(n, c)`. -/
theorem conv128_apply (Q : (⟨S100000x128, .f32⟩ : BufTy).Contents (Elt Ideal)) (dcol : (⟨S100000x1, .f32⟩ : BufTy).Contents (Elt Ideal))
    (sv dv : (⟨S1600000, .i32⟩ : BufTy).Contents (Elt Ideal)) (b : (⟨S128, .f32⟩ : BufTy).Contents (Elt Ideal))
    (n : Fin 100000) (c : Fin 128) :
    conv128 Q dcol sv dv b (ix2 n c)
      = dcol (ix2 n (0 : Fin 1))
          * ((∑ e ∈ Finset.univ.filter (fun e : Fin 1600000 => (dv (ix1 e)).toInt = (n.val : ℤ)),
                Q (ix2 (GcnSpec.rowOf 100000 (by decide) (sv (ix1 e))) c)) + Q (ix2 n c))
        + b (ix1 c) := by
  have key := agg_apply (D := 128)
    scatter_S100000x128_S1600000x1_S1600000x128_1_0_0_1 scatter_S100000x128_S1600000x1_S1600000x128_1_0_0_1_wf rfl
    gather_S100000x128_S1600000x1_S1600000x128_1_0_n_n_0_1_1128 gather_S100000x128_S1600000x1_S1600000x128_1_0_n_n_0_1_1128_wf rfl
    bcast_S_S100000x128 bcast_S100000x1_S100000x128_0_1 bcast_S128_S1x128_1 bcast_S1x128_S100000x128_0_1
    Q dcol sv dv b n c
  delta conv128
  rw [key]

/-- The aggregation of the 64-column layer at `(n, c)`. -/
theorem conv64_apply (Q : (⟨S100000x64, .f32⟩ : BufTy).Contents (Elt Ideal)) (dcol : (⟨S100000x1, .f32⟩ : BufTy).Contents (Elt Ideal))
    (sv dv : (⟨S1600000, .i32⟩ : BufTy).Contents (Elt Ideal)) (b : (⟨S64, .f32⟩ : BufTy).Contents (Elt Ideal))
    (n : Fin 100000) (c : Fin 64) :
    conv64 Q dcol sv dv b (ix2 n c)
      = dcol (ix2 n (0 : Fin 1))
          * ((∑ e ∈ Finset.univ.filter (fun e : Fin 1600000 => (dv (ix1 e)).toInt = (n.val : ℤ)),
                Q (ix2 (GcnSpec.rowOf 100000 (by decide) (sv (ix1 e))) c)) + Q (ix2 n c))
        + b (ix1 c) := by
  have key := agg_apply (D := 64)
    scatter_S100000x64_S1600000x1_S1600000x64_1_0_0_1 scatter_S100000x64_S1600000x1_S1600000x64_1_0_0_1_wf rfl
    gather_S100000x64_S1600000x1_S1600000x64_1_0_n_n_0_1_164 gather_S100000x64_S1600000x1_S1600000x64_1_0_n_n_0_1_164_wf rfl
    bcast_S_S100000x64 bcast_S100000x1_S100000x64_0_1 bcast_S64_S1x64_1 bcast_S1x64_S100000x64_0_1
    Q dcol sv dv b n c
  delta conv64
  rw [key]

/-! ## A kernel's scaled product fed to the aggregation is one layer

With Q(r, c) = (Σ_k X(r, k) · W(k, c)) · dis r, the aggregation at `(n, c)` is the scale-first arrangement of the column
r ↦ Σ_k X(r, k) · W(k, c): the edges' targets are row 1 of the edge array read signed, their source rows row 0 wrapped
and clamped. -/

/-- The aggregation of a scaled product, at `(n, c)`, is the layer of the unscaled product's column `c`. -/
theorem layer_of_agg {D : Nat} (X : (⟨2, ![100000, 128]⟩ : Shape).Idx → EReal) (W : (⟨2, ![128, D]⟩ : Shape).Idx → EReal)
    (x1 : (⟨S2x1600000, .i32⟩ : BufTy).Contents (Elt Ideal)) (bc : EReal) (n : Fin 100000) (c : Fin D) :
    disCol x1 (ix2 n (0 : Fin 1))
        * ((∑ e ∈ Finset.univ.filter (fun e : Fin 1600000 => (dstVec x1 (ix1 e)).toInt = (n.val : ℤ)),
              scaledProdArr X W (disCol x1) (ix2 (GcnSpec.rowOf 100000 (by decide) (srcVec x1 (ix1 e))) c))
            + scaledProdArr X W (disCol x1) (ix2 n c))
        + bc
      = GcnSpec.convK (GcnSpec.tgt x1) (GcnSpec.src (N := 100000) (by decide) x1) (fun r => disVec x1 (ix1 r))
          (fun r => ∑ k : Fin 128, X (ix2 r k) * W (ix2 k c)) bc n := by
  have hQ : ∀ r : Fin 100000, scaledProdArr X W (disCol x1) (ix2 r c)
      = (∑ k : Fin 128, X (ix2 r k) * W (ix2 k c)) * disVec x1 (ix1 r) := fun r => by
    rw [scaledProdArr_ix2]; unfold scaledProd; rw [disCol_apply]
  rw [disCol_apply, hQ n]
  unfold GcnSpec.convK GcnSpec.tgt GcnSpec.src
  refine congrArg (fun z => disVec x1 (ix1 n) * (z + (∑ k : Fin 128, X (ix2 n k) * W (ix2 k c)) * disVec x1 (ix1 n)) + bc) ?_
  refine Finset.sum_congr (Finset.filter_congr fun e _ => ?_) fun e _ => ?_
  · rw [dstVec_apply]
  · rw [srcVec_apply, hQ]

/-- The 128-column layer: the first kernel's scaled product through its aggregation. -/
theorem layer128_apply (X : (⟨S100000x128, .bf16⟩ : BufTy).Contents (Elt Ideal)) (W : (⟨S128x128, .bf16⟩ : BufTy).Contents (Elt Ideal))
    (x1 : (⟨S2x1600000, .i32⟩ : BufTy).Contents (Elt Ideal)) (b : (⟨S128, .f32⟩ : BufTy).Contents (Elt Ideal))
    (n : Fin 100000) (c : Fin 128) :
    conv128 (scaledProdArr X W (disCol x1)) (disCol x1) (srcVec x1) (dstVec x1) b (ix2 n c)
      = GcnSpec.convK (GcnSpec.tgt x1) (GcnSpec.src (N := 100000) (by decide) x1) (fun r => disVec x1 (ix1 r))
          (fun r => ∑ k : Fin 128, X (ix2 r k) * W (ix2 k c)) (b (ix1 c)) n := by
  have key := layer_of_agg (D := 128) X W x1 (b (ix1 c)) n c
  rw [conv128_apply, key]

/-- The 64-column layer: the second kernel's scaled product through its aggregation. -/
theorem layer64_apply (X : (⟨S100000x128, .bf16⟩ : BufTy).Contents (Elt Ideal)) (W : (⟨S128x64, .bf16⟩ : BufTy).Contents (Elt Ideal))
    (x1 : (⟨S2x1600000, .i32⟩ : BufTy).Contents (Elt Ideal)) (b : (⟨S64, .f32⟩ : BufTy).Contents (Elt Ideal))
    (n : Fin 100000) (c : Fin 64) :
    conv64 (scaledProdArr X W (disCol x1)) (disCol x1) (srcVec x1) (dstVec x1) b (ix2 n c)
      = GcnSpec.convK (GcnSpec.tgt x1) (GcnSpec.src (N := 100000) (by decide) x1) (fun r => disVec x1 (ix1 r))
          (fun r => ∑ k : Fin 128, X (ix2 r k) * W (ix2 k c)) (b (ix1 c)) n := by
  have key := layer_of_agg (D := 64) X W x1 (b (ix1 c)) n c
  rw [conv64_apply, key]

end Cert.KernelIdeal.KV

end
-- ==== Proof.RefLayers.lean ====
/-
  The reference side of the two graph-convolution layers, read at an index.

  The reference appends the N = 100000 self loops (0, 1, …, N − 1) to both rows of the edge array, giving two index
  columns of E + N = 1600000 + 100000 words. From the target column it counts, by an accumulating scatter of ones into
  zeros, how many updates land at each node; the degree coefficient is the inverse square root of the maximum of that
  count and one, a nonnegative real. A layer gathers the source rows of a dense product, scales update e by the product
  of the coefficient at its source row and the coefficient at the row its target word addresses, adds the scaled rows
  into the target rows of zeros, and adds a bias.

  Read at (n, c) this is the sum over the extended edge list that GcnSpec.convR names, and the appended self loops turn
  it into the scale-first arrangement GcnSpec.convK of the raw arrays: on the first E positions both columns read the
  edge array; on the last N positions both read the word of k, which is not negative (so the wrap leaves it alone) and
  below N (so the clamp leaves it alone); and an update that lands at row n was addressed by a word whose signed value is
  n, so the row that word addresses after wrap and clamp is n again.
-/
import proofs.«138132_j76630806496038_2_alg».proof.Proof.Gen.ReferenceIdeal.Read
import proofs.«138132_j76630806496038_2_alg».proof.Proof.LibGcnLayer
import proofs.«138132_j76630806496038_2_alg».proof.Proof.LibSegmentSum
import proofs.«138132_j76630806496038_2_alg».proof.Proof.LibRowScatter
import proofs.«138132_j76630806496038_2_alg».proof.Proof.LibHostBroadcast

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Signed index words

An index word whose signed value is a row number `n < N` is not negative, so the wrap leaves it alone, and it is
below `N`, so the clamp leaves it alone: the row it addresses is `n`. -/

/-- A word whose signed value is the row number `n` addresses row `n`. -/
theorem rowOf_of_toInt {N : Nat} (hN : 0 < N) (v : BitVec 32) (n : Fin N) (h : v.toInt = (n.val : ℤ)) :
    GcnSpec.rowOf N hN v = n := by
  have hw : GcnSpec.wrapIdx N v = v := by
    unfold GcnSpec.wrapIdx
    have hc : IntOp.cmpi .slt v 0#32 = 0#1 := by
      show BitVec.ofBool (v.slt 0#32) = 0#1
      have : v.slt 0#32 = false := by
        rw [BitVec.slt_eq_decide, decide_eq_false]
        rw [h]; simp
      rw [this]; rfl
    rw [hc, select_zero]
  refine Fin.ext ?_
  show min (GcnSpec.wrapIdx N v).toInt.toNat (N - 1) = n.val
  rw [hw, h]
  have := n.isLt
  omega

/-- The word of a natural number below 2^31 reads, signed, as that number. -/
theorem toInt_ofNat_lt (k : Nat) (hk : k < 2147483648) : (BitVec.ofNat 32 k).toInt = (k : ℤ) := by
  have hn : (BitVec.ofNat 32 k).toNat = k := by
    rw [BitVec.toNat_ofNat]
    exact Nat.mod_eq_of_lt (by omega)
  rw [BitVec.toInt_eq_toNat_of_lt (by rw [hn]; omega), hn]

/-! ## The two index columns with the self loops appended

The source column is row 0 of the edge array followed by 0, 1, …, 99999; the target column is row 1 followed by the
same. Position `castAdd e` reads edge `e`; position `natAdd k` reads the word of `k`. -/

section Index
variable (x1 : (⟨S2x1600000, .i32⟩ : BufTy).Contents (Elt Ideal))

/-- The source column on the first `E` positions is row 0 of the edge array. -/
theorem v3_left (e : Fin 1600000) :
    val_main_v3 (F := Ideal) x1 (ix1 (Fin.castAdd 100000 e)) = x1 (ix2 (0 : Fin 2) e) := by
  unfold val_main_v3
  refine (concatenate_pair_apply_left (t := S1700000) (s₁ := S1600000) (s₂ := S100000) (0 : Fin 1) _ _ concatenates_S1600000_S100000_S1700000_d0 _ rfl (ix1 e)
    (fun b => by obtain rfl : b = 0 := Subsingleton.elim _ _; rfl)).trans ?_
  rw [val_main_v2_apply, val_main_v1_apply]
  refine congrArg x1 (funext fun a => Fin.ext ?_)
  match a with
  | ⟨0, _⟩ => rfl
  | ⟨1, _⟩ => exact Nat.mod_eq_of_lt e.isLt

/-- The target column on the first `E` positions is row 1 of the edge array. -/
theorem v6_left (e : Fin 1600000) :
    val_main_v6 (F := Ideal) x1 (ix1 (Fin.castAdd 100000 e)) = x1 (ix2 (1 : Fin 2) e) := by
  unfold val_main_v6
  refine (concatenate_pair_apply_left (t := S1700000) (s₁ := S1600000) (s₂ := S100000) (0 : Fin 1) _ _ concatenates_S1600000_S100000_S1700000_d0 _ rfl (ix1 e)
    (fun b => by obtain rfl : b = 0 := Subsingleton.elim _ _; rfl)).trans ?_
  rw [val_main_v5_apply, val_main_v4_apply]
  refine congrArg x1 (funext fun a => Fin.ext ?_)
  match a with
  | ⟨0, _⟩ => rfl
  | ⟨1, _⟩ => exact Nat.mod_eq_of_lt e.isLt

/-- The source column on the last `N` positions is the word of the position's offset. -/
theorem v3_right (k : Fin 100000) :
    val_main_v3 (F := Ideal) x1 (ix1 (Fin.natAdd 1600000 k)) = BitVec.ofNat 32 k.val := by
  unfold val_main_v3
  refine (concatenate_pair_apply_right (t := S1700000) (s₁ := S1600000) (s₂ := S100000) (0 : Fin 1) _ _ concatenates_S1600000_S100000_S1700000_d0 _ rfl rfl (ix1 k)
    (fun b hb => absurd (Subsingleton.elim _ _) hb) ?_).trans ?_
  · show k.val + 1600000 = 1600000 + k.val
    omega
  · rfl

/-- The target column on the last `N` positions is the word of the position's offset. -/
theorem v6_right (k : Fin 100000) :
    val_main_v6 (F := Ideal) x1 (ix1 (Fin.natAdd 1600000 k)) = BitVec.ofNat 32 k.val := by
  unfold val_main_v6
  refine (concatenate_pair_apply_right (t := S1700000) (s₁ := S1600000) (s₂ := S100000) (0 : Fin 1) _ _ concatenates_S1600000_S100000_S1700000_d0 _ rfl rfl (ix1 k)
    (fun b hb => absurd (Subsingleton.elim _ _) hb) ?_).trans ?_
  · show k.val + 1600000 = 1600000 + k.val
    omega
  · rfl

end Index

/-! ## Index bookkeeping -/

/-- A rank-1 index is the index of its one coordinate. -/
theorem idx1_ext {n : Nat} (f : (⟨1, ![n]⟩ : Shape).Idx) (a : Fin n) (h : (f 0).val = a.val) : f = ix1 a :=
  funext fun d => by
    match d with
    | ⟨0, _⟩ => exact Fin.ext h

/-- A rank-2 index is the index of its two coordinates. -/
theorem idx2_ext {n0 n1 : Nat} (f : (⟨2, ![n0, n1]⟩ : Shape).Idx) (a : Fin n0) (b : Fin n1)
    (h0 : (f 0).val = a.val) (h1 : (f 1).val = b.val) : f = ix2 a b :=
  funext fun d => by
    match d with
    | ⟨0, _⟩ => exact Fin.ext h0
    | ⟨1, _⟩ => exact Fin.ext h1

/-! ## The extended edge list

Position `e` of the 1600000 + 100000 updates has a signed target (the raw target word), a source row (the source word
wrapped and clamped) and a target row (the target word wrapped and clamped), the last read only for its coefficient. -/

section Edges
variable (x1 : (⟨S2x1600000, .i32⟩ : BufTy).Contents (Elt Ideal))

/-- The signed target of update `e`. -/
def tF (e : Fin (1600000 + 100000)) : ℤ := (val_main_v6 (F := Ideal) x1 (ix1 e)).toInt

/-- The source row of update `e`. -/
def sF (e : Fin (1600000 + 100000)) : Fin 100000 :=
  GcnSpec.rowOf 100000 (by decide) (val_main_v3 (F := Ideal) x1 (ix1 e))

/-- The row whose coefficient update `e` takes for its target. -/
def dF (e : Fin (1600000 + 100000)) : Fin 100000 :=
  GcnSpec.rowOf 100000 (by decide) (val_main_v6 (F := Ideal) x1 (ix1 e))

/-- On the first `E` positions the extended list is the edge list: same target, same source row. -/
theorem tF_left (e : Fin 1600000) : tF x1 (Fin.castAdd 100000 e) = GcnSpec.tgt x1 e :=
  congrArg BitVec.toInt (v6_left x1 e)

theorem sF_left (e : Fin 1600000) :
    sF x1 (Fin.castAdd 100000 e) = GcnSpec.src (N := 100000) (by decide) x1 e :=
  congrArg (GcnSpec.rowOf 100000 (by decide)) (v3_left x1 e)

/-- An edge whose signed target is `n` takes node `n`'s coefficient for its target. -/
theorem dF_left (e : Fin 1600000) (n : Fin 100000) (h : GcnSpec.tgt x1 e = (n.val : ℤ)) :
    dF x1 (Fin.castAdd 100000 e) = n :=
  (congrArg (GcnSpec.rowOf 100000 (by decide)) (v6_left x1 e)).trans (rowOf_of_toInt _ _ n h)

/-- On the last `N` positions the extended list is the self loops. -/
theorem tF_right (k : Fin 100000) : tF x1 (Fin.natAdd 1600000 k) = (k.val : ℤ) :=
  (congrArg BitVec.toInt (v6_right x1 k)).trans (toInt_ofNat_lt _ (by have := k.isLt; omega))

theorem sF_right (k : Fin 100000) : sF x1 (Fin.natAdd 1600000 k) = k :=
  (congrArg (GcnSpec.rowOf 100000 (by decide)) (v3_right x1 k)).trans
    (rowOf_of_toInt _ _ k (toInt_ofNat_lt _ (by have := k.isLt; omega)))

theorem dF_right (k : Fin 100000) : dF x1 (Fin.natAdd 1600000 k) = k :=
  (congrArg (GcnSpec.rowOf 100000 (by decide)) (v6_right x1 k)).trans
    (rowOf_of_toInt _ _ k (toInt_ofNat_lt _ (by have := k.isLt; omega)))

/-! ### The wrapped columns the gathers read -/

/-- Each wrapped column is the wrap of its raw column, word by word. -/
theorem v18_eq (i : S1700000.Idx) :
    val_main_v18 (F := Ideal) x1 i = GcnSpec.wrapIdx 100000 (val_main_v3 (F := Ideal) x1 i) := by
  rw [val_main_v18_apply, val_main_v15_apply, val_main_v17_apply, val_main_v14_apply, val_main_v16_apply]
  rfl

theorem v25_eq (i : S1700000.Idx) :
    val_main_v25 (F := Ideal) x1 i = GcnSpec.wrapIdx 100000 (val_main_v6 (F := Ideal) x1 i) := by
  rw [val_main_v25_apply, val_main_v22_apply, val_main_v24_apply, val_main_v21_apply, val_main_v23_apply]
  rfl

theorem v34_eq (i : S1700000.Idx) :
    val_main_v34 (F := Ideal) x1 i = GcnSpec.wrapIdx 100000 (val_main_v3 (F := Ideal) x1 i) := by
  rw [val_main_v34_apply, val_main_v31_apply, val_main_v33_apply, val_main_v30_apply, val_main_v32_apply]
  rfl

theorem v52_eq (i : S1700000.Idx) :
    val_main_v52 (F := Ideal) x1 i = GcnSpec.wrapIdx 100000 (val_main_v3 (F := Ideal) x1 i) := by
  rw [val_main_v52_apply, val_main_v49_apply, val_main_v51_apply, val_main_v48_apply, val_main_v50_apply]
  rfl

/-- The row the coefficient gather reads for the source of update `e`. -/
theorem clamp_v19 (e : Fin (1600000 + 100000)) :
    SegmentSum.clampRow 100000 (by decide) (E := 1600000 + 100000) (w := 32) (val_main_v19 (F := Ideal) x1) e = sF x1 e := by
  refine Fin.ext ?_
  show min (val_main_v19 (F := Ideal) x1 (ix2 e 0)).toInt.toNat (100000 - 1) = _
  rw [val_main_v19_apply, v18_eq, idx1_ext (idx_main_v19 (ix2 e 0)) e rfl]
  rfl

/-- The row the coefficient gather reads for the target word of update `e`. -/
theorem clamp_v26 (e : Fin (1600000 + 100000)) :
    SegmentSum.clampRow 100000 (by decide) (E := 1600000 + 100000) (w := 32) (val_main_v26 (F := Ideal) x1) e = dF x1 e := by
  refine Fin.ext ?_
  show min (val_main_v26 (F := Ideal) x1 (ix2 e 0)).toInt.toNat (100000 - 1) = _
  rw [val_main_v26_apply, v25_eq, idx1_ext (idx_main_v26 (ix2 e 0)) e rfl]
  rfl

/-- The row the first layer's gather reads for update `e`. -/
theorem clamp_v35 (e : Fin (1600000 + 100000)) :
    SegmentSum.clampRow 100000 (by decide) (E := 1600000 + 100000) (w := 32) (val_main_v35 (F := Ideal) x1) e = sF x1 e := by
  refine Fin.ext ?_
  show min (val_main_v35 (F := Ideal) x1 (ix2 e 0)).toInt.toNat (100000 - 1) = _
  rw [val_main_v35_apply, v34_eq, idx1_ext (idx_main_v35 (ix2 e 0)) e rfl]
  rfl

/-- The row the second layer's gather reads for update `e`. -/
theorem clamp_v53 (e : Fin (1600000 + 100000)) :
    SegmentSum.clampRow 100000 (by decide) (E := 1600000 + 100000) (w := 32) (val_main_v53 (F := Ideal) x1) e = sF x1 e := by
  refine Fin.ext ?_
  show min (val_main_v53 (F := Ideal) x1 (ix2 e 0)).toInt.toNat (100000 - 1) = _
  rw [val_main_v53_apply, v52_eq, idx1_ext (idx_main_v53 (ix2 e 0)) e rfl]
  rfl

end Edges

/-! ## The degree coefficient is a nonnegative real

Scattering ones into zeros counts the updates landing at a node; the maximum of a count and 1 is a real at least 1;
the inverse square root of a positive real is a nonnegative real. -/

/-- The f32 word 0x3F800000 is the real number one. -/
theorem ofBits_one_f32 : Ideal.ofBits .f32 0x3F800000#32 = 1 := by
  simp [Ideal.ofBits, Ideal.ieee, -EReal.coe_mul]; norm_num

/-- An accumulating scatter of ones into zeros is, at each operand element, a natural number: the number of updates
    landing there. -/
theorem scatter_ones_count {s si su : Shape} (d : ScatterDims s si su) {w : Nat} (idx : IVec si w)
    (Z : s.Idx → EReal) (O : su.Idx → EReal) (i : s.Idx) (hZ : Z i = 0) (hO : ∀ j, O j = 1) :
    ∃ m : ℕ, Ideal.hostScatterAdd d Z idx O i = ((m : ℝ) : EReal) := by
  unfold Ideal.hostScatterAdd
  exact ⟨_, by rw [hZ, zero_add, Finset.sum_congr rfl (fun j _ => hO j), SegmentSum.sum_one_eq_card]⟩

/-- The inverse square root of the maximum of a count and one is a nonnegative real. -/
theorem rsqrt_max_count_real (m : ℕ) :
    ∃ r : ℝ, 0 ≤ r ∧ Ideal.rsqrt (max ((m : ℝ) : EReal) ((1 : ℝ) : EReal)) = (r : EReal) := by
  have hpos : (0 : ℝ) < max (m : ℝ) 1 := lt_of_lt_of_le one_pos (le_max_right _ _)
  refine ⟨(Real.sqrt (max (m : ℝ) 1))⁻¹, inv_nonneg.mpr (Real.sqrt_nonneg _), ?_⟩
  rw [← EReal.coe_strictMono.monotone.map_max, Ideal.rsqrt_coe, if_neg (not_lt.mpr hpos.le), if_neg hpos.ne']

section Degree
variable (x1 : (⟨S2x1600000, .i32⟩ : BufTy).Contents (Elt Ideal))

theorem v8_zero (i : S100000.Idx) : val_main_v8 (F := Ideal) i = 0 := by
  rw [val_main_v8_apply, val_main_cst_0_apply]
  exact Ideal.ofBits_zero_f32

theorem v7_one (j : S1700000.Idx) : val_main_v7 (F := Ideal) j = 1 := by
  rw [val_main_v7_apply, val_main_cst_apply]
  exact ofBits_one_f32

theorem v11_one (i : S100000.Idx) : val_main_v11 (F := Ideal) i = ((1 : ℝ) : EReal) := by
  rw [val_main_v11_apply, val_main_cst_1_apply]
  exact ofBits_one_f32

end Degree

/-- At the ideal values the host's accumulating scatter is the exact sum: the same function, named two ways. -/
theorem host_scatterAdd_eq {s si su : Shape} {w : Nat} (d : ScatterDims s si su) (x : FVec Ideal s .f32)
    (idx : IVec si w) (upd : FVec Ideal su .f32) :
    Host.scatterAdd d x idx upd = Ideal.hostScatterAdd d x idx upd := rfl

section Degree
variable (x1 : (⟨S2x1600000, .i32⟩ : BufTy).Contents (Elt Ideal))

/-- The count array is the accumulating scatter of the ones into the zeros along the target column. -/
theorem v10_fn : val_main_v10 (F := Ideal) x1
    = Host.scatterAdd (F := Ideal) (φ := .f32) scatter_S100000_S1700000x1_S1700000_n_0_0_1 (val_main_v8 (F := Ideal))
        (val_main_v9 (F := Ideal) x1) (val_main_v7 (F := Ideal)) := rfl

/-- The count at a node is a natural number. -/
theorem v10_count (n : Fin 100000) : ∃ m : ℕ, val_main_v10 (F := Ideal) x1 (ix1 n) = ((m : ℝ) : EReal) := by
  obtain ⟨m, hm⟩ := scatter_ones_count scatter_S100000_S1700000x1_S1700000_n_0_0_1 (val_main_v9 (F := Ideal) x1)
    (val_main_v8 (F := Ideal)) (val_main_v7 (F := Ideal)) (ix1 n) (v8_zero _) v7_one
  refine ⟨m, ?_⟩
  rw [v10_fn, host_scatterAdd_eq]
  exact hm

/-- The degree coefficient at a node is a nonnegative real. -/
theorem dis_real (n : Fin 100000) : ∃ r : ℝ, 0 ≤ r ∧ val_main_v13 (F := Ideal) x1 (ix1 n) = (r : EReal) := by
  obtain ⟨m, h10⟩ := v10_count x1 n
  obtain ⟨r, hr, h⟩ := rsqrt_max_count_real m
  refine ⟨r, hr, ?_⟩
  rw [val_main_v13_apply, val_main_v12_apply, h10, v11_one, Ideal.hostUnary_rsqrt_def, Ideal.maximumf_def]
  exact h

end Degree

/-! ## The coefficient of an update

Update `e` is scaled by the product of two gathered degree coefficients: the one at its source row and the one at the
row its target word addresses. -/

section Norm
variable (x1 : (⟨S2x1600000, .i32⟩ : BufTy).Contents (Elt Ideal))

/-- The coefficient gathered for the source of update `e`. -/
theorem v20_at (e : Fin (1600000 + 100000)) :
    val_main_v20 (F := Ideal) x1 (ix1 e) = val_main_v13 (F := Ideal) x1 (ix1 (sF x1 e)) := by
  have key := SegmentSum.vecGather_apply (N := 100000) (E := 1600000 + 100000) (w := 32) (by decide)
    gather_S100000_S1700000x1_S1700000_n_0_n_n_0_1_1_wf (val_main_v13 (F := Ideal) x1)
    (val_main_v19 (F := Ideal) x1) (ix1 e)
  exact key.trans (congrArg (fun r => val_main_v13 (F := Ideal) x1 (ix1 r)) (clamp_v19 x1 e))

/-- The coefficient gathered for the target word of update `e`. -/
theorem v27_at (e : Fin (1600000 + 100000)) :
    val_main_v27 (F := Ideal) x1 (ix1 e) = val_main_v13 (F := Ideal) x1 (ix1 (dF x1 e)) := by
  have key := SegmentSum.vecGather_apply (N := 100000) (E := 1600000 + 100000) (w := 32) (by decide)
    gather_S100000_S1700000x1_S1700000_n_0_n_n_0_1_1_wf (val_main_v13 (F := Ideal) x1)
    (val_main_v26 (F := Ideal) x1) (ix1 e)
  exact key.trans (congrArg (fun r => val_main_v13 (F := Ideal) x1 (ix1 r)) (clamp_v26 x1 e))

/-- The scale of update `e`: the product of the two. -/
theorem v28_at (e : Fin (1600000 + 100000)) :
    val_main_v28 (F := Ideal) x1 (ix1 e)
      = val_main_v13 (F := Ideal) x1 (ix1 (sF x1 e)) * val_main_v13 (F := Ideal) x1 (ix1 (dF x1 e)) := by
  rw [val_main_v28_apply, Ideal.mulf_def, v20_at, v27_at]

/-! ## One layer

Gathered source rows of `P`, each scaled by the update's coefficient, added into the target rows of zeros, plus a
bias: at `(n, c)` this is the sum over the extended edge list, which the appended self loops turn into the
scale-first arrangement. The number of columns is a parameter; both layers are instances. -/

/-- One layer at `(n, c)` is the scale-first arrangement of column `c` of `P`. -/
theorem layer {D : Nat}
    (wfs : ScatterDims.WF ⟨2, ![100000, D]⟩ ⟨2, ![1600000 + 100000, 1]⟩ ⟨2, ![1600000 + 100000, D]⟩ [1] [0] [0] 1)
    (Z B P : (⟨2, ![100000, D]⟩ : Shape).Idx → EReal)
    (col : IVec ⟨2, ![1600000 + 100000, 1]⟩ 32)
    (U : (⟨2, ![1600000 + 100000, D]⟩ : Shape).Idx → EReal)
    (b : EReal) (n : Fin 100000) (c : Fin D)
    (hZ : Z (ix2 n c) = 0) (hB : B (ix2 n c) = b)
    (hcol : ∀ e, (col (ix2 e 0)).toInt = tF x1 e)
    (hU : ∀ e, U (ix2 e c) = P (ix2 (sF x1 e) c) * val_main_v28 (F := Ideal) x1 (ix1 e)) :
    Ideal.hostScatterAdd (SegmentSum.rowScatterDims 100000 (1600000 + 100000) D wfs) Z col U (ix2 n c) + B (ix2 n c)
      = GcnSpec.convK (GcnSpec.tgt x1) (GcnSpec.src (N := 100000) (by decide) x1)
          (fun r => val_main_v13 (F := Ideal) x1 (ix1 r)) (fun r => P (ix2 r c)) b n := by
  have key := SegmentSum.rowScatterAdd_apply wfs Z col U n c
  have main := GcnSpec.convR_eq_convK (tF x1) (sF x1) (dF x1) (GcnSpec.tgt x1)
    (GcnSpec.src (N := 100000) (by decide) x1) (fun r => val_main_v13 (F := Ideal) x1 (ix1 r)) (dis_real x1)
    (fun r => P (ix2 r c)) b n (tF_left x1) (sF_left x1) (fun e h => dF_left x1 e n h) (tF_right x1) (sF_right x1)
    (dF_right x1)
  rw [key, hZ, zero_add, hB, ← main]
  unfold GcnSpec.convR
  refine congrArg (fun s => s + b) ?_
  refine Finset.sum_congr (Finset.filter_congr fun e _ => by rw [hcol e]) fun e _ => ?_
  rw [hU e, v28_at x1 e]

end Norm

/-! ## The two layers -/

section Layers
variable (x0 : (⟨S100000x128, .f32⟩ : BufTy).Contents (Elt Ideal))
  (x1 : (⟨S2x1600000, .i32⟩ : BufTy).Contents (Elt Ideal))
  (x3 : (⟨S128x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))

/-- The first dense product at `(r, c)`. -/
theorem v29_at (r : Fin 100000) (c : Fin 128) :
    val_main_v29 (F := Ideal) x0 x3 (ix2 r c) = ∑ k : Fin 128, x0 (ix2 r k) * x3 (ix2 k c) := by
  rw [val_main_v29_apply]
  refine Finset.sum_congr rfl fun k _ => ?_
  rw [idx2_ext (lidx_main_v29 (ix2 r c) k) r k rfl rfl, idx2_ext (ridx_main_v29 (ix2 r c) k) k c rfl rfl]

/-- The second dense product at `(r, c)`. -/
theorem v47_at (r : Fin 100000) (c : Fin 64) :
    val_main_v47 (F := Ideal) x0 x1 x3 x4 x5 (ix2 r c)
      = ∑ k : Fin 128, val_main_v46 (F := Ideal) x0 x1 x3 x4 (ix2 r k) * x5 (ix2 k c) := by
  rw [val_main_v47_apply]
  refine Finset.sum_congr rfl fun k _ => ?_
  rw [idx2_ext (lidx_main_v47 (ix2 r c) k) r k rfl rfl, idx2_ext (ridx_main_v47 (ix2 r c) k) k c rfl rfl]

/-- The gathered row of the first product for update `e`. -/
theorem v36_at (e : Fin (1600000 + 100000)) (c : Fin 128) :
    val_main_v36 (F := Ideal) x0 x1 x3 (ix2 e c) = val_main_v29 (F := Ideal) x0 x3 (ix2 (sF x1 e) c) := by
  have key := SegmentSum.rowGather_apply (N := 100000) (E := 1600000 + 100000) (D := 128) (w := 32) (by decide)
    gather_S100000x128_S1700000x1_S1700000x128_1_0_n_n_0_1_1128_wf (val_main_v29 (F := Ideal) x0 x3)
    (val_main_v35 (F := Ideal) x1) (ix2 e c)
  exact key.trans (congrArg (fun r => val_main_v29 (F := Ideal) x0 x3 (ix2 r c)) (clamp_v35 x1 e))

/-- The gathered row of the second product for update `e`. -/
theorem v54_at (e : Fin (1600000 + 100000)) (c : Fin 64) :
    val_main_v54 (F := Ideal) x0 x1 x3 x4 x5 (ix2 e c)
      = val_main_v47 (F := Ideal) x0 x1 x3 x4 x5 (ix2 (sF x1 e) c) := by
  have key := SegmentSum.rowGather_apply (N := 100000) (E := 1600000 + 100000) (D := 64) (w := 32) (by decide)
    gather_S100000x64_S1700000x1_S1700000x64_1_0_n_n_0_1_164_wf (val_main_v47 (F := Ideal) x0 x1 x3 x4 x5)
    (val_main_v53 (F := Ideal) x1) (ix2 e c)
  exact key.trans (congrArg (fun r => val_main_v47 (F := Ideal) x0 x1 x3 x4 x5 (ix2 r c)) (clamp_v53 x1 e))

/-- The first layer's accumulation is the scatter of the scaled gathered rows into zeros along the target column. -/
theorem v42_fn : val_main_v42 (F := Ideal) x0 x1 x3
    = Host.scatterAdd (F := Ideal) (φ := .f32) scatter_S100000x128_S1700000x1_S1700000x128_1_0_0_1 (val_main_v40 (F := Ideal))
        (val_main_v41 (F := Ideal) x1) (val_main_v39 (F := Ideal) x0 x1 x3) := rfl

/-- The second layer's accumulation likewise. -/
theorem v60_fn : val_main_v60 (F := Ideal) x0 x1 x3 x4 x5
    = Host.scatterAdd (F := Ideal) (φ := .f32) scatter_S100000x64_S1700000x1_S1700000x64_1_0_0_1 (val_main_v58 (F := Ideal))
        (val_main_v59 (F := Ideal) x1) (val_main_v57 (F := Ideal) x0 x1 x3 x4 x5) := rfl

/-- The first layer before its activation, at `(n, c)`. -/
theorem conv1 (n : Fin 100000) (c : Fin 128) :
    val_main_v45 (F := Ideal) x0 x1 x3 x4 (ix2 n c)
      = GcnSpec.convK (GcnSpec.tgt x1) (GcnSpec.src (N := 100000) (by decide) x1)
          (fun r => val_main_v13 (F := Ideal) x1 (ix1 r))
          (fun r => ∑ k : Fin 128, x0 (ix2 r k) * x3 (ix2 k c)) (x4 (ix1 c)) n := by
  have hZ : val_main_v40 (F := Ideal) (ix2 n c) = 0 := by
    rw [val_main_v40_apply, val_main_cst_7_apply, Ideal.ofBits_def]
    exact Ideal.ofBits_zero_f32
  have hB : val_main_v44 (F := Ideal) x4 (ix2 n c) = x4 (ix1 c) := by
    rw [val_main_v44_apply, val_main_v43_apply, idx1_ext (idx_main_v43 (idx_main_v44 (ix2 n c))) c rfl]
  have hcol : ∀ e : Fin (1600000 + 100000), (val_main_v41 (F := Ideal) x1 (ix2 e 0)).toInt = tF x1 e := fun e => by
    rw [val_main_v41_apply, idx1_ext (idx_main_v41 (ix2 e 0)) e rfl]
    rfl
  have hU : ∀ e : Fin (1600000 + 100000), val_main_v39 (F := Ideal) x0 x1 x3 (ix2 e c)
      = val_main_v29 (F := Ideal) x0 x3 (ix2 (sF x1 e) c) * val_main_v28 (F := Ideal) x1 (ix1 e) := fun e => by
    rw [val_main_v39_apply, Ideal.mulf_def, v36_at, val_main_v38_apply, val_main_v37_apply,
      idx1_ext (idx_main_v37 (idx_main_v38 (ix2 e c))) e rfl]
  have key := layer x1 scatter_S100000x128_S1700000x1_S1700000x128_1_0_0_1_wf (val_main_v40 (F := Ideal))
    (val_main_v44 (F := Ideal) x4) (val_main_v29 (F := Ideal) x0 x3) (val_main_v41 (F := Ideal) x1)
    (val_main_v39 (F := Ideal) x0 x1 x3) (x4 (ix1 c)) n c hZ hB hcol hU
  rw [val_main_v45_apply, Ideal.addf_def, v42_fn, host_scatterAdd_eq]
  refine key.trans ?_
  rw [funext fun r => v29_at x0 x3 r c]

/-- The second layer before its activation, at `(n, c)`: the same argument as the first layer, with 64 columns and
    the second layer's arrays. -/
theorem conv2 (n : Fin 100000) (c : Fin 64) :
    val_main_v63 (F := Ideal) x0 x1 x3 x4 x5 x6 (ix2 n c)
      = GcnSpec.convK (GcnSpec.tgt x1) (GcnSpec.src (N := 100000) (by decide) x1)
          (fun r => val_main_v13 (F := Ideal) x1 (ix1 r))
          (fun r => ∑ k : Fin 128, val_main_v46 (F := Ideal) x0 x1 x3 x4 (ix2 r k) * x5 (ix2 k c)) (x6 (ix1 c)) n := by
  have hZ : val_main_v58 (F := Ideal) (ix2 n c) = 0 := by
    rw [val_main_v58_apply, val_main_cst_10_apply, Ideal.ofBits_def]
    exact Ideal.ofBits_zero_f32
  have hB : val_main_v62 (F := Ideal) x6 (ix2 n c) = x6 (ix1 c) := by
    rw [val_main_v62_apply, val_main_v61_apply, idx1_ext (idx_main_v61 (idx_main_v62 (ix2 n c))) c rfl]
  have hcol : ∀ e : Fin (1600000 + 100000), (val_main_v59 (F := Ideal) x1 (ix2 e 0)).toInt = tF x1 e := fun e => by
    rw [val_main_v59_apply, idx1_ext (idx_main_v59 (ix2 e 0)) e rfl]
    rfl
  have hU : ∀ e : Fin (1600000 + 100000), val_main_v57 (F := Ideal) x0 x1 x3 x4 x5 (ix2 e c)
      = val_main_v47 (F := Ideal) x0 x1 x3 x4 x5 (ix2 (sF x1 e) c) * val_main_v28 (F := Ideal) x1 (ix1 e) :=
    fun e => by
    rw [val_main_v57_apply, Ideal.mulf_def, v54_at, val_main_v56_apply, val_main_v55_apply,
      idx1_ext (idx_main_v55 (idx_main_v56 (ix2 e c))) e rfl]
  have key := layer x1 scatter_S100000x64_S1700000x1_S1700000x64_1_0_0_1_wf (val_main_v58 (F := Ideal))
    (val_main_v62 (F := Ideal) x6) (val_main_v47 (F := Ideal) x0 x1 x3 x4 x5) (val_main_v59 (F := Ideal) x1)
    (val_main_v57 (F := Ideal) x0 x1 x3 x4 x5) (x6 (ix1 c)) n c hZ hB hcol hU
  rw [val_main_v63_apply, Ideal.addf_def, v60_fn, host_scatterAdd_eq]
  refine key.trans ?_
  rw [funext fun r => v47_at x0 x1 x3 x4 x5 r c]

end Layers

end Cert.ReferenceIdeal.RefValue

end
-- ==== Proof.Bridge.lean ====
/-
  The two idealized programs compute one function.

  Both end with the same mean pool and linear head applied to the second layer's rectified result, so it is enough that
  the layers agree. Per layer the kernel side is the scale-first arrangement of the column r ↦ Σ_k h(r, k) · W(k, c)
  (its matrix-product kernel rounds the operands to the product's input format, the identity at the ideal instance) and
  the reference side the same arrangement reached from the sum over the edge list with the self loops appended; the degree
  coefficient is one term on both sides. The first layers agree outright; the second layers read the first layers' results,
  so they agree by the first.
-/
import proofs.«138132_j76630806496038_2_alg».proof.Proof.KernelChain
import proofs.«138132_j76630806496038_2_alg».proof.Proof.KernelLayers
import proofs.«138132_j76630806496038_2_alg».proof.Proof.RefLayers

set_option maxRecDepth 16384

noncomputable section

open scoped BigOperators

namespace Cert.Bridge

open Idealize.ShloMosaic Idealize.ShloMosaic.ValueIdx
open Cert.KernelIdeal.KV Cert.ReferenceIdeal.Read Cert.ReferenceIdeal.RefValue

variable (x0 : (⟨Cert.KernelIdeal.S100000x128, .f32⟩ : BufTy).Contents (Elt Ideal))
  (x1 : (⟨Cert.KernelIdeal.S2x1600000, .i32⟩ : BufTy).Contents (Elt Ideal))
  (x2 : (⟨Cert.KernelIdeal.S100000, .i32⟩ : BufTy).Contents (Elt Ideal))
  (x3 : (⟨Cert.KernelIdeal.S128x128, .f32⟩ : BufTy).Contents (Elt Ideal))
  (x4 : (⟨Cert.KernelIdeal.S128, .f32⟩ : BufTy).Contents (Elt Ideal))
  (x5 : (⟨Cert.KernelIdeal.S128x64, .f32⟩ : BufTy).Contents (Elt Ideal))
  (x6 : (⟨Cert.KernelIdeal.S64, .f32⟩ : BufTy).Contents (Elt Ideal))
  (x7 : (⟨Cert.KernelIdeal.S64x1, .f32⟩ : BufTy).Contents (Elt Ideal))
  (x8 : (⟨Cert.KernelIdeal.S1, .f32⟩ : BufTy).Contents (Elt Ideal))

/-- The degree coefficient is the same term of the edge-index array in both programs. -/
theorem dis_eq : disVec x1 = val_main_v13 (F := Ideal) x1 := rfl

/-- The reference's rectification floor is zero. -/
theorem floor0 (i : Cert.ReferenceIdeal.S100000x128.Idx) : val_main_call0_v0 (F := Ideal) i = 0 := by
  rw [val_main_call0_v0_apply, val_main_call0_cst_apply]
  exact Ideal.ofBits_zero_f32

theorem floor1 (i : Cert.ReferenceIdeal.S100000x64.Idx) : val_main_call1_v0 (F := Ideal) i = 0 := by
  rw [val_main_call1_v0_apply, val_main_call1_cst_apply]
  exact Ideal.ofBits_zero_f32

/-- The first layers agree. -/
theorem h1_eq : h1K x0 x1 x3 x4 = val_main_v46 (F := Ideal) x0 x1 x3 x4 := by
  funext i
  obtain ⟨n, c, rfl⟩ : ∃ (n : Fin 100000) (c : Fin 128), i = ix2 n c := ⟨i 0, i 1, eq_ix2 i⟩
  unfold h1K
  rw [relu128_apply, layer128_apply, val_main_v46_apply, conv1, floor0, dis_eq]
  rfl

/-- The second layers agree. -/
theorem h2_eq : h2K x0 x1 x3 x4 x5 x6 = val_main_v64 (F := Ideal) x0 x1 x3 x4 x5 x6 := by
  funext i
  obtain ⟨n, c, rfl⟩ : ∃ (n : Fin 100000) (c : Fin 64), i = ix2 n c := ⟨i 0, i 1, eq_ix2 i⟩
  unfold h2K
  rw [h1_eq, relu64_apply, layer64_apply, val_main_v64_apply, conv2, floor1, dis_eq]
  rfl

/-- The reference's result is the shared tail of its second layer. -/
theorem ref_out : val_main_v81 (F := Ideal) x0 x1 x2 x3 x4 x5 x6 x7 x8
    = tailT (val_main_v64 (F := Ideal) x0 x1 x3 x4 x5 x6) x2 x7 x8 := rfl

/-- The two results agree. -/
theorem out_eq : tailT (h2K x0 x1 x3 x4 x5 x6) x2 x7 x8 = val_main_v81 (F := Ideal) x0 x1 x2 x3 x4 x5 x6 x7 x8 := by
  rw [ref_out, h2_eq]

end Cert.Bridge

end
-- ==== Proof.lean ====
/-
  The certificate of the two-layer graph convolution with mean pool and linear head.

  The kernel program scales each node's transformed features by its degree coefficient inside a matrix-product kernel,
  sums them over the incoming real edges on the host, adds the node's own scaled features for its self loop and scales
  the total once more; the reference sums over the edge list with the self loops appended, each term scaled by the product
  of the two coefficients. The degree coefficient is a nonnegative real, so it passes through the finite sums of extended
  reals and the two arrangements agree layer by layer (LibGcnLayer, RefLayers, KernelLayers, Bridge); the pooled head is the same
  term on both sides. The kernel's value is read off the run of @main's segments (KernelRun, KernelChain, RegionValue);
  the frames of the two kernel programs are the generated ones and the reference's frame is its run with the result
  dropped. The idealization rewrote nothing, so there is nothing to preserve.
-/
import proofs.«138132_j76630806496038_2_alg».proof.Defs
import proofs.«138132_j76630806496038_2_alg».proof.Proof.Gen.Kernel
import proofs.«138132_j76630806496038_2_alg».proof.Proof.Gen.Kernel.Skeleton
import proofs.«138132_j76630806496038_2_alg».proof.Proof.Gen.Kernel.Launch
import proofs.«138132_j76630806496038_2_alg».proof.Proof.Gen.Kernel.Points
import proofs.«138132_j76630806496038_2_alg».proof.Proof.Gen.Kernel.Frame
import proofs.«138132_j76630806496038_2_alg».proof.Proof.Gen.KernelIdeal
import proofs.«138132_j76630806496038_2_alg».proof.Proof.Gen.KernelIdeal.Skeleton
import proofs.«138132_j76630806496038_2_alg».proof.Proof.Gen.KernelIdeal.Launch
import proofs.«138132_j76630806496038_2_alg».proof.Proof.Gen.KernelIdeal.Points
import proofs.«138132_j76630806496038_2_alg».proof.Proof.Gen.KernelIdeal.Frame
import proofs.«138132_j76630806496038_2_alg».proof.Proof.Gen.ReferenceIdeal
import proofs.«138132_j76630806496038_2_alg».proof.Proof.Gen.Pre_finite_inputs
import proofs.«138132_j76630806496038_2_alg».proof.Proof.Gen.ReferenceIdeal.Run
import proofs.«138132_j76630806496038_2_alg».proof.Proof.Gen.ReferenceIdeal.Read
import proofs.«138132_j76630806496038_2_alg».proof.Proof.KernelRun
import proofs.«138132_j76630806496038_2_alg».proof.Proof.KernelChain
import proofs.«138132_j76630806496038_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the pooled head of the second layer's result of the (agreeing) arguments. -/
theorem algebraic : Cert.algebraic_KernelIdeal_ReferenceIdeal := by
  intro m ρ m' ρ' _ hagree
  refine ⟨fun c => Cert.KernelIdeal.KV.tailT
      (Cert.KernelIdeal.KV.h2K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KV.W9_value m ρ c), (h c).2⟩) (Cert.KernelIdeal.KV.run_value m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v81_eq, e0, e1, e2, e3, e4, e5, e6, e7, e8]
    exact (Cert.Bridge.out_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
